-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : IVec S8192 32) (main_arg3 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192 : Shape := ⟨1, ![8192]⟩
abbrev S8192x1 : Shape := ⟨2, ![8192, 1]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S8192x128x1 : Shape := ⟨3, ![8192, 128, 1]⟩
abbrev S1 : Shape := ⟨1, ![1]⟩
abbrev S1x1x1 : Shape := ⟨3, ![1, 1, 1]⟩
abbrev S1x8192 : Shape := ⟨2, ![1, 8192]⟩
abbrev S8192x8192 : Shape := ⟨2, ![8192, 8192]⟩
abbrev S1024x1024 : Shape := ⟨2, ![1024, 1024]⟩
abbrev S512x1024 : Shape := ⟨2, ![512, 1024]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S1024x512 : Shape := ⟨2, ![1024, 512]⟩

abbrev nBuf : Space → Nat
  | .hbm => 71
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S8192, .i32⟩
  | .hbm, ⟨4, _⟩ => ⟨S8192x1, .i32⟩
  | .hbm, ⟨5, _⟩ => ⟨S_, .i32⟩
  | .hbm, ⟨6, _⟩ => ⟨S8192x1, .i32⟩
  | .hbm, ⟨7, _⟩ => ⟨S8192x1, .i32⟩
  | .hbm, ⟨8, _⟩ => ⟨S128, .i32⟩
  | .hbm, ⟨9, _⟩ => ⟨S1x128, .i32⟩
  | .hbm, ⟨10, _⟩ => ⟨S8192x128, .i32⟩
  | .hbm, ⟨11, _⟩ => ⟨S8192x128, .i32⟩
  | .hbm, ⟨12, _⟩ => ⟨S8192x128, .i32⟩
  | .hbm, ⟨13, _⟩ => ⟨S_, .i32⟩
  | .hbm, ⟨14, _⟩ => ⟨S8192x128, .i32⟩
  | .hbm, ⟨15, _⟩ => ⟨S8192x128, .i1⟩
  | .hbm, ⟨16, _⟩ => ⟨S_, .i32⟩
  | .hbm, ⟨17, _⟩ => ⟨S8192x128, .i32⟩
  | .hbm, ⟨18, _⟩ => ⟨S8192x128, .i32⟩
  | .hbm, ⟨19, _⟩ => ⟨S8192x128, .i32⟩
  | .hbm, ⟨20, _⟩ => ⟨S8192x128x1, .i32⟩
  | .hbm, ⟨21, _⟩ => ⟨S1, .i32⟩
  | .hbm, ⟨22, _⟩ => ⟨S_, .i32⟩
  | .hbm, ⟨23, _⟩ => ⟨S8192x128x1, .i32⟩
  | .hbm, ⟨24, _⟩ => ⟨S8192x128x1, .i1⟩
  | .hbm, ⟨25, _⟩ => ⟨S1x1x1, .i32⟩
  | .hbm, ⟨26, _⟩ => ⟨S8192x128x1, .i32⟩
  | .hbm, ⟨27, _⟩ => ⟨S8192x128x1, .i1⟩
  | .hbm, ⟨28, _⟩ => ⟨S8192x128x1, .i1⟩
  | .hbm, ⟨29, _⟩ => ⟨S_, .i1⟩
  | .hbm, ⟨30, _⟩ => ⟨S8192x128, .i1⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S8192x128, .bf16⟩
  | .hbm, ⟨36, _⟩ => ⟨S8192x1, .i32⟩
  | .hbm, ⟨37, _⟩ => ⟨S_, .i32⟩
  | .hbm, ⟨38, _⟩ => ⟨S8192x1, .i32⟩
  | .hbm, ⟨39, _⟩ => ⟨S8192x1, .i32⟩
  | .hbm, ⟨40, _⟩ => ⟨S128, .i32⟩
  | .hbm, ⟨41, _⟩ => ⟨S1x128, .i32⟩
  | .hbm, ⟨42, _⟩ => ⟨S8192x128, .i32⟩
  | .hbm, ⟨43, _⟩ => ⟨S8192x128, .i32⟩
  | .hbm, ⟨44, _⟩ => ⟨S8192x128, .i32⟩
  | .hbm, ⟨45, _⟩ => ⟨S_, .i32⟩
  | .hbm, ⟨46, _⟩ => ⟨S8192x128, .i32⟩
  | .hbm, ⟨47, _⟩ => ⟨S8192x128, .i1⟩
  | .hbm, ⟨48, _⟩ => ⟨S_, .i32⟩
  | .hbm, ⟨49, _⟩ => ⟨S8192x128, .i32⟩
  | .hbm, ⟨50, _⟩ => ⟨S8192x128, .i32⟩
  | .hbm, ⟨51, _⟩ => ⟨S8192x128, .i32⟩
  | .hbm, ⟨52, _⟩ => ⟨S8192x128x1, .i32⟩
  | .hbm, ⟨53, _⟩ => ⟨S1, .i32⟩
  | .hbm, ⟨54, _⟩ => ⟨S_, .i32⟩
  | .hbm, ⟨55, _⟩ => ⟨S8192x128x1, .i32⟩
  | .hbm, ⟨56, _⟩ => ⟨S8192x128x1, .i1⟩
  | .hbm, ⟨57, _⟩ => ⟨S1x1x1, .i32⟩
  | .hbm, ⟨58, _⟩ => ⟨S8192x128x1, .i32⟩
  | .hbm, ⟨59, _⟩ => ⟨S8192x128x1, .i1⟩
  | .hbm, ⟨60, _⟩ => ⟨S8192x128x1, .i1⟩
  | .hbm, ⟨61, _⟩ => ⟨S_, .i1⟩
  | .hbm, ⟨62, _⟩ => ⟨S8192x128, .i1⟩
  | .hbm, ⟨63, _⟩ => ⟨S8192x128, .f32⟩
  | .hbm, ⟨64, _⟩ => ⟨S_, .f32⟩
  | .hbm, ⟨65, _⟩ => ⟨S8192x128, .f32⟩
  | .hbm, ⟨66, _⟩ => ⟨S8192x128, .f32⟩
  | .hbm, ⟨67, _⟩ => ⟨S8192x128, .bf16⟩
  | .hbm, ⟨68, _⟩ => ⟨S8192x1, .i32⟩
  | .hbm, ⟨69, _⟩ => ⟨S1x8192, .i32⟩
  | .hbm, ⟨70, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x128, .bf16⟩
  | .local _ .vmem, ⟨5, _⟩ => ⟨S1024x128, .bf16⟩
  | .local _ .vmem, ⟨6, _⟩ => ⟨S512x128, .bf16⟩
  | .local _ .vmem, ⟨7, _⟩ => ⟨S512x128, .bf16⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x512, .f32⟩
  | .local _ .vmem, ⟨13, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_cst : Ref sig .tc := ⟨.hbm, 64, rfl⟩
abbrev main_call1_v14 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S128_S1x128_1 : S128.BroadcastsInDim S1x128 (![1] : Fin 1 → Fin S1x128.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  shapeCasts_S8192x128_S8192x128x1 : S8192x128.ShapeCasts S8192x128x1
  bcast_S_S8192x128x1 : S_.BroadcastsInDim S8192x128x1 (![] : Fin 0 → Fin S8192x128x1.rank)
  bcast_S1_S1x1x1_2 : S1.BroadcastsInDim S1x1x1 (![2] : Fin 1 → Fin S1x1x1.rank)
  bcast_S1x1x1_S8192x128x1_0_1_2 : S1x1x1.BroadcastsInDim S8192x128x1 (![0, 1, 2] : Fin 3 → Fin S8192x128x1.rank)
  reducesTo_S8192x128x1_S8192x128_d2 : S8192x128x1.ReducesTo [2] S8192x128
  h_S_ : 0 < S_.numel
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  gather_S8192x1024_S8192x128x1_S8192x128_n_1_0_0_1_2_11_wf : GatherDims.WF S8192x1024 S8192x128x1 S8192x128 [] [1] [0] [1] [0] 2 ![1, 1]
  dot_S1024x128_S512x128_S1024x512_1_1_0_0_n_n_wf : DotDims.WF S1024x128 S512x128 S1024x512 [1] [1] [0] [0] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S8192x128.size a
  hwx0_3 : ∀ i : grid0.Coords, EltTy.bits .bf16 = 32 ∨ (Rect.block (s := S8192x128) S512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S8192x8192.size a
  hwx0_6 : ∀ i : grid0.Coords, EltTy.bits .f32 = 32 ∨ (Rect.block (s := S8192x8192) S1024x512.size (cc0_transform_6 i) (hinb0_6 i)).WholeWords (EltTy.packing .f32)

variable [Facts₀]

def gather_S8192x1024_S8192x128x1_S8192x128_n_1_0_0_1_2_11 : GatherDims S8192x1024 S8192x128x1 S8192x128 where
  offsetDims := []
  collapsedSliceDims := [1]
  operandBatchingDims := [0]
  startIndicesBatchingDims := [0]
  startIndexMap := [1]
  indexVectorDim := 2
  sliceSizes := ![1, 1]
  wf := gather_S8192x1024_S8192x128x1_S8192x128_n_1_0_0_1_2_11_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S1024x8192 : Shape := ⟨2, ![1024, 8192]⟩
abbrev S8192x8192 : Shape := ⟨2, ![8192, 8192]⟩
abbrev S8192x1 : Shape := ⟨2, ![8192, 1]⟩
abbrev S_ : Shape := ⟨0, ![]⟩
abbrev S128 : Shape := ⟨1, ![128]⟩
abbrev S1x128 : Shape := ⟨2, ![1, 128]⟩
abbrev S8192x128 : Shape := ⟨2, ![8192, 128]⟩
abbrev S8192x128x1 : Shape := ⟨3, ![8192, 128, 1]⟩
abbrev S1 : Shape := ⟨1, ![1]⟩
abbrev S1x1x1 : Shape := ⟨3, ![1, 1, 1]⟩
abbrev S128x8192 : Shape := ⟨2, ![128, 8192]⟩
abbrev S1x8192 : Shape := ⟨2, ![1, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S8192, .i32⟩
  | .hbm, ⟨4, _⟩ => ⟨S1024x8192, .f32⟩
  | .hbm, ⟨5, _⟩ => ⟨S8192x8192, .f32⟩
  | .hbm, ⟨6, _⟩ => ⟨S8192x1, .i32⟩
  | .hbm, ⟨7, _⟩ => ⟨S_, .i32⟩
  | .hbm, ⟨8, _⟩ => ⟨S8192x1, .i32⟩
  | .hbm, ⟨9, _⟩ => ⟨S8192x1, .i32⟩
  | .hbm, ⟨10, _⟩ => ⟨S128, .i32⟩
  | .hbm, ⟨11, _⟩ => ⟨S1x128, .i32⟩
  | .hbm, ⟨12, _⟩ => ⟨S8192x128, .i32⟩
  | .hbm, ⟨13, _⟩ => ⟨S8192x128, .i32⟩
  | .hbm, ⟨14, _⟩ => ⟨S8192x128, .i32⟩
  | .hbm, ⟨15, _⟩ => ⟨S_, .i32⟩
  | .hbm, ⟨16, _⟩ => ⟨S8192x128, .i32⟩
  | .hbm, ⟨17, _⟩ => ⟨S8192x128, .i1⟩
  | .hbm, ⟨18, _⟩ => ⟨S_, .i32⟩
  | .hbm, ⟨19, _⟩ => ⟨S8192x128, .i32⟩
  | .hbm, ⟨20, _⟩ => ⟨S8192x128, .i32⟩
  | .hbm, ⟨21, _⟩ => ⟨S8192x128, .i32⟩
  | .hbm, ⟨22, _⟩ => ⟨S8192x128x1, .i32⟩
  | .hbm, ⟨23, _⟩ => ⟨S1, .i32⟩
  | .hbm, ⟨24, _⟩ => ⟨S_, .i32⟩
  | .hbm, ⟨25, _⟩ => ⟨S8192x128x1, .i32⟩
  | .hbm, ⟨26, _⟩ => ⟨S8192x128x1, .i1⟩
  | .hbm, ⟨27, _⟩ => ⟨S1x1x1, .i32⟩
  | .hbm, ⟨28, _⟩ => ⟨S8192x128x1, .i32⟩
  | .hbm, ⟨29, _⟩ => ⟨S8192x128x1, .i1⟩
  | .hbm, ⟨30, _⟩ => ⟨S8192x128x1, .i1⟩
  | .hbm, ⟨31, _⟩ => ⟨S_, .i1⟩
  | .hbm, ⟨32, _⟩ => ⟨S8192x128, .i1⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S128, .i32⟩
  | .hbm, ⟨42, _⟩ => ⟨S1x128, .i32⟩
  | .hbm, ⟨43, _⟩ => ⟨S8192x128, .i32⟩
  | .hbm, ⟨44, _⟩ => ⟨S8192x128, .i32⟩
  | .hbm, ⟨45, _⟩ => ⟨S8192x128, .i32⟩
  | .hbm, ⟨46, _⟩ => ⟨S_, .i32⟩
  | .hbm, ⟨47, _⟩ => ⟨S8192x128, .i32⟩
  | .hbm, ⟨48, _⟩ => ⟨S8192x128, .i1⟩
  | .hbm, ⟨49, _⟩ => ⟨S_, .i32⟩
  | .hbm, ⟨50, _⟩ => ⟨S8192x128, .i32⟩
  | .hbm, ⟨51, _⟩ => ⟨S8192x128, .i32⟩
  | .hbm, ⟨52, _⟩ => ⟨S8192x128, .i32⟩
  | .hbm, ⟨53, _⟩ => ⟨S8192x128x1, .i32⟩
  | .hbm, ⟨54, _⟩ => ⟨S1, .i32⟩
  | .hbm, ⟨55, _⟩ => ⟨S_, .i32⟩
  | .hbm, ⟨56, _⟩ => ⟨S8192x128x1, .i32⟩
  | .hbm, ⟨57, _⟩ => ⟨S8192x128x1, .i1⟩
  | .hbm, ⟨58, _⟩ => ⟨S1x1x1, .i32⟩
  | .hbm, ⟨59, _⟩ => ⟨S8192x128x1, .i32⟩
  | .hbm, ⟨60, _⟩ => ⟨S8192x128x1, .i1⟩
  | .hbm, ⟨61, _⟩ => ⟨S8192x128x1, .i1⟩
  | .hbm, ⟨62, _⟩ => ⟨S_, .i1⟩
  | .hbm, ⟨63, _⟩ => ⟨S8192x128, .i1⟩
  | .hbm, ⟨64, _⟩ => ⟨S8192x128, .f32⟩
  | .hbm, ⟨65, _⟩ => ⟨S_, .f32⟩
  | .hbm, ⟨66, _⟩ => ⟨S8192x128, .f32⟩
  | .hbm, ⟨67, _⟩ => ⟨S8192x128, .f32⟩
  | .hbm, ⟨68, _⟩ => ⟨S128x8192, .f32⟩
  | .hbm, ⟨69, _⟩ => ⟨S8192x8192, .f32⟩
  | .hbm, ⟨70, _⟩ => ⟨S8192x1, .i32⟩
  | .hbm, ⟨71, _⟩ => ⟨S1x8192, .i32⟩
  | .hbm, ⟨72, _⟩ => ⟨S8192x8192, .i32⟩
  | .hbm, ⟨73, _⟩ => ⟨S8192x8192, .i32⟩
  | .hbm, ⟨74, _⟩ => ⟨S8192x8192, .i1⟩
  | .hbm, ⟨75, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v10 : Ref sig .tc := ⟨.hbm, 36, rfl⟩
abbrev main_v11 : Ref sig .tc := ⟨.hbm, 37, rfl⟩
abbrev main_c_0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S128_S1x128_1 : S128.BroadcastsInDim S1x128 (![1] : Fin 1 → Fin S1x128.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  shapeCasts_S8192x128_S8192x128x1 : S8192x128.ShapeCasts S8192x128x1
  bcast_S_S8192x128x1 : S_.BroadcastsInDim S8192x128x1 (![] : Fin 0 → Fin S8192x128x1.rank)
  bcast_S1_S1x1x1_2 : S1.BroadcastsInDim S1x1x1 (![2] : Fin 1 → Fin S1x1x1.rank)
  bcast_S1x1x1_S8192x128x1_0_1_2 : S1x1x1.BroadcastsInDim S8192x128x1 (![0, 1, 2] : Fin 3 → Fin S8192x128x1.rank)
  reducesTo_S8192x128x1_S8192x128_d2 : S8192x128x1.ReducesTo [2] S8192x128
  h_S_ : 0 < S_.numel
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x1024_S1024x8192_S8192x8192_1_0_0_1_n_n_wf : DotDims.WF S8192x1024 S1024x8192 S8192x8192 [1] [0] [0] [1] [] []
  gather_S8192x1024_S8192x128x1_S8192x128_n_1_0_0_1_2_11_wf : GatherDims.WF S8192x1024 S8192x128x1 S8192x128 [] [1] [0] [1] [0] 2 ![1, 1]
  dot_S8192x128_S128x8192_S8192x8192_1_0_0_1_n_n_wf : DotDims.WF S8192x128 S128x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x1024_S8192x128x1_S8192x128_n_1_0_0_1_2_11 : GatherDims S8192x1024 S8192x128x1 S8192x128 where
  offsetDims := []
  collapsedSliceDims := [1]
  operandBatchingDims := [0]
  startIndicesBatchingDims := [0]
  startIndexMap := [1]
  indexVectorDim := 2
  sliceSizes := ![1, 1]
  wf := gather_S8192x1024_S8192x128x1_S8192x128_n_1_0_0_1_2_11_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RefRun.lean ====
/-
  The reference, run: what its result buffer holds when it ends, as one term of the four arguments.

  The reference is a straight line of 72 host operations. It forms the table of dot products of rows of the first
  feature array with rows of the second (a product with the second array transposed); for each feature array it computes
  per row the 128 column numbers 128 · type + 0 … 127 of the row's type slot, wraps a negative number by adding 1024,
  gathers those entries along the row and puts a fill value wherever a wrapped number still lies outside 0 … 1023; it forms
  the table of dot products of the two gathered arrays (again through a transpose); and it selects, entry by entry,
  the first table where the two rows' type words are equal and the second elsewhere.

  The line of operations and the result are stated for two ARBITRARY functions `valid` and `pick` in the places of two of
  those operations — the test "every component of the index is in range", a reduction by `and`, and the gather itself —:
  what the result buffer holds after the line is the same term of the arguments whatever those two functions are, because
  the line only carries values from buffer to buffer. The program's own line is the instance at the two real operations
  (`ops`), and its result the instance of the result (`res_main_v27`).
-/
import proofs.«139188_j51488067944939_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## The line of operations -/

/-- @main's 72 operations, in order (a called function's operations stand in its call's place), with `valid` for the
    "every component in range" reduction and `pick` for the gather of both calls. -/
abbrev opsOf (valid : (⟨S8192x128x1, .i1⟩ : BufTy).Contents (Elt F) → (⟨S_, .i1⟩ : BufTy).Contents (Elt F) → (⟨S8192x128, .i1⟩ : BufTy).Contents (Elt F))
    (pick : (⟨S8192x1024, .f32⟩ : BufTy).Contents (Elt F) → (⟨S8192x128x1, .i32⟩ : BufTy).Contents (Elt F) → (⟨S8192x128, .f32⟩ : BufTy).Contents (Elt F)) :
    List (HloOp τ sig (Elt F)) :=
  [ unary main_arg1 main_v0 ((transpose S1024x8192 [1, 0] · transposes_S8192x1024_S1024x8192_1_0) : (⟨S8192x1024, .f32⟩ : BufTy).Contents (Elt F) → (⟨S1024x8192, .f32⟩ : BufTy).Contents (Elt F)),
    binary main_arg0 main_v0 main_v1 ((fun l r => Host.dotGeneral dot_S8192x1024_S1024x8192_S8192x8192_1_0_0_1_n_n none l r) : (⟨S8192x1024, .f32⟩ : BufTy).Contents (Elt F) → (⟨S1024x8192, .f32⟩ : BufTy).Contents (Elt F) → (⟨S8192x8192, .f32⟩ : BufTy).Contents (Elt F)),
    unary main_arg2 main_v2 (broadcastInDim S8192x1 ![0] bcast_S8192_S8192x1_0 : (⟨S8192, .i32⟩ : BufTy).Contents (Elt F) → (⟨S8192x1, .i32⟩ : BufTy).Contents (Elt F)),
    nullary main_c (constantI S_ 32 128#32),
    unary main_c main_v3 (broadcastInDim S8192x1 ![] bcast_S_S8192x1 : (⟨S_, .i32⟩ : BufTy).Contents (Elt F) → (⟨S8192x1, .i32⟩ : BufTy).Contents (Elt F)),
    binary main_v2 main_v3 main_v4 (muli : (⟨S8192x1, .i32⟩ : BufTy).Contents (Elt F) → (⟨S8192x1, .i32⟩ : BufTy).Contents (Elt F) → (⟨S8192x1, .i32⟩ : BufTy).Contents (Elt F)),
    nullary main_v5 (iotaInDim S128 32 0),
    unary main_v5 main_v6 (broadcastInDim S1x128 ![1] bcast_S128_S1x128_1 : (⟨S128, .i32⟩ : BufTy).Contents (Elt F) → (⟨S1x128, .i32⟩ : BufTy).Contents (Elt F)),
    unary main_v4 main_v7 (broadcastInDim S8192x128 ![0, 1] bcast_S8192x1_S8192x128_0_1 : (⟨S8192x1, .i32⟩ : BufTy).Contents (Elt F) → (⟨S8192x128, .i32⟩ : BufTy).Contents (Elt F)),
    unary main_v6 main_v8 (broadcastInDim S8192x128 ![0, 1] bcast_S1x128_S8192x128_0_1 : (⟨S1x128, .i32⟩ : BufTy).Contents (Elt F) → (⟨S8192x128, .i32⟩ : BufTy).Contents (Elt F)),
    binary main_v7 main_v8 main_v9 (addi : (⟨S8192x128, .i32⟩ : BufTy).Contents (Elt F) → (⟨S8192x128, .i32⟩ : BufTy).Contents (Elt F) → (⟨S8192x128, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S8192x128, .i32⟩) main_call0_v0) (broadcastInDim S8192x128 ![] bcast_S_S8192x128),
    TRef.binary (TRef.of (T := ⟨S8192x128, .i32⟩) main_v9) (TRef.of (T := ⟨S8192x128, .i32⟩) main_call0_v0) (TRef.of (T := ⟨S8192x128, .i1⟩) main_call0_v1) (cmpi .slt),
    TRef.nullary (TRef.of (T := ⟨S_, .i32⟩) main_call0_c_0) (constantI S_ 32 1024#32),
    TRef.unary (TRef.of (T := ⟨S_, .i32⟩) main_call0_c_0) (TRef.of (T := ⟨S8192x128, .i32⟩) main_call0_v2) (broadcastInDim S8192x128 ![] bcast_S_S8192x128),
    TRef.binary (TRef.of (T := ⟨S8192x128, .i32⟩) main_v9) (TRef.of (T := ⟨S8192x128, .i32⟩) main_call0_v2) (TRef.of (T := ⟨S8192x128, .i32⟩) main_call0_v3) addi,
    TRef.ternary (TRef.of (T := ⟨S8192x128, .i1⟩) main_call0_v1) (TRef.of (T := ⟨S8192x128, .i32⟩) main_call0_v3) (TRef.of (T := ⟨S8192x128, .i32⟩) main_v9) (TRef.of (T := ⟨S8192x128, .i32⟩) main_call0_v4) select,
    TRef.reshape (TRef.of (T := ⟨S8192x128, .i32⟩) main_call0_v4) (TRef.of (T := ⟨S8192x128x1, .i32⟩) main_call0_v5) rfl shapeCasts_S8192x128_S8192x128x1,
    TRef.nullary (TRef.of (T := ⟨S1, .i32⟩) main_call0_c_1) (constantI S1 32 1023#32),
    TRef.nullary (TRef.of (T := ⟨S_, .i32⟩) main_call0_c_2) (constantI S_ 32 0#32),
    TRef.unary (TRef.of (T := ⟨S_, .i32⟩) main_call0_c_2) (TRef.of (T := ⟨S8192x128x1, .i32⟩) main_call0_v6) (broadcastInDim S8192x128x1 ![] bcast_S_S8192x128x1),
    TRef.binary (TRef.of (T := ⟨S8192x128x1, .i32⟩) main_call0_v5) (TRef.of (T := ⟨S8192x128x1, .i32⟩) main_call0_v6) (TRef.of (T := ⟨S8192x128x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S8192x128x1, .i32⟩) main_call0_v9) (broadcastInDim S8192x128x1 ![0, 1, 2] bcast_S1x1x1_S8192x128x1_0_1_2),
    TRef.binary (TRef.of (T := ⟨S8192x128x1, .i32⟩) main_call0_v5) (TRef.of (T := ⟨S8192x128x1, .i32⟩) main_call0_v9) (TRef.of (T := ⟨S8192x128x1, .i1⟩) main_call0_v10) (cmpi .sle),
    TRef.binary (TRef.of (T := ⟨S8192x128x1, .i1⟩) main_call0_v7) (TRef.of (T := ⟨S8192x128x1, .i1⟩) main_call0_v10) (TRef.of (T := ⟨S8192x128x1, .i1⟩) main_call0_v11) andi,
    TRef.nullary (TRef.of (T := ⟨S_, .i1⟩) main_call0_c_3) (constantI S_ 1 1#1),
    TRef.binary (TRef.of (T := ⟨S8192x128x1, .i1⟩) main_call0_v11) (TRef.of (T := ⟨S_, .i1⟩) main_call0_c_3) (TRef.of (T := ⟨S8192x128, .i1⟩) main_call0_v12) valid,
    TRef.binary (TRef.of (T := ⟨S8192x1024, .f32⟩) main_arg0) (TRef.of (T := ⟨S8192x128x1, .i32⟩) main_call0_v5) (TRef.of (T := ⟨S8192x128, .f32⟩) main_call0_v13) pick,
    TRef.nullary (TRef.of (T := ⟨S_, .f32⟩) main_call0_cst) (constant S_ .f32 0x7FC00000#32),
    TRef.unary (TRef.of (T := ⟨S_, .f32⟩) main_call0_cst) (TRef.of (T := ⟨S8192x128, .f32⟩) main_call0_v14) (broadcastInDim S8192x128 ![] bcast_S_S8192x128),
    TRef.ternary (TRef.of (T := ⟨S8192x128, .i1⟩) main_call0_v12) (TRef.of (T := ⟨S8192x128, .f32⟩) main_call0_v13) (TRef.of (T := ⟨S8192x128, .f32⟩) main_call0_v14) (TRef.of (T := ⟨S8192x128, .f32⟩) main_v10) select,
    unary main_arg3 main_v11 (broadcastInDim S8192x1 ![0] bcast_S8192_S8192x1_0 : (⟨S8192, .i32⟩ : BufTy).Contents (Elt F) → (⟨S8192x1, .i32⟩ : BufTy).Contents (Elt F)),
    nullary main_c_0 (constantI S_ 32 128#32),
    unary main_c_0 main_v12 (broadcastInDim S8192x1 ![] bcast_S_S8192x1 : (⟨S_, .i32⟩ : BufTy).Contents (Elt F) → (⟨S8192x1, .i32⟩ : BufTy).Contents (Elt F)),
    binary main_v11 main_v12 main_v13 (muli : (⟨S8192x1, .i32⟩ : BufTy).Contents (Elt F) → (⟨S8192x1, .i32⟩ : BufTy).Contents (Elt F) → (⟨S8192x1, .i32⟩ : BufTy).Contents (Elt F)),
    nullary main_v14 (iotaInDim S128 32 0),
    unary main_v14 main_v15 (broadcastInDim S1x128 ![1] bcast_S128_S1x128_1 : (⟨S128, .i32⟩ : BufTy).Contents (Elt F) → (⟨S1x128, .i32⟩ : BufTy).Contents (Elt F)),
    unary main_v13 main_v16 (broadcastInDim S8192x128 ![0, 1] bcast_S8192x1_S8192x128_0_1 : (⟨S8192x1, .i32⟩ : BufTy).Contents (Elt F) → (⟨S8192x128, .i32⟩ : BufTy).Contents (Elt F)),
    unary main_v15 main_v17 (broadcastInDim S8192x128 ![0, 1] bcast_S1x128_S8192x128_0_1 : (⟨S1x128, .i32⟩ : BufTy).Contents (Elt F) → (⟨S8192x128, .i32⟩ : BufTy).Contents (Elt F)),
    binary main_v16 main_v17 main_v18 (addi : (⟨S8192x128, .i32⟩ : BufTy).Contents (Elt F) → (⟨S8192x128, .i32⟩ : BufTy).Contents (Elt F) → (⟨S8192x128, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S8192x128, .i32⟩) main_call1_v0) (broadcastInDim S8192x128 ![] bcast_S_S8192x128),
    TRef.binary (TRef.of (T := ⟨S8192x128, .i32⟩) main_v18) (TRef.of (T := ⟨S8192x128, .i32⟩) main_call1_v0) (TRef.of (T := ⟨S8192x128, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S8192x128, .i32⟩) main_call1_v2) (broadcastInDim S8192x128 ![] bcast_S_S8192x128),
    TRef.binary (TRef.of (T := ⟨S8192x128, .i32⟩) main_v18) (TRef.of (T := ⟨S8192x128, .i32⟩) main_call1_v2) (TRef.of (T := ⟨S8192x128, .i32⟩) main_call1_v3) addi,
    TRef.ternary (TRef.of (T := ⟨S8192x128, .i1⟩) main_call1_v1) (TRef.of (T := ⟨S8192x128, .i32⟩) main_call1_v3) (TRef.of (T := ⟨S8192x128, .i32⟩) main_v18) (TRef.of (T := ⟨S8192x128, .i32⟩) main_call1_v4) select,
    TRef.reshape (TRef.of (T := ⟨S8192x128, .i32⟩) main_call1_v4) (TRef.of (T := ⟨S8192x128x1, .i32⟩) main_call1_v5) rfl shapeCasts_S8192x128_S8192x128x1,
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S8192x128x1, .i32⟩) main_call1_v6) (broadcastInDim S8192x128x1 ![] bcast_S_S8192x128x1),
    TRef.binary (TRef.of (T := ⟨S8192x128x1, .i32⟩) main_call1_v5) (TRef.of (T := ⟨S8192x128x1, .i32⟩) main_call1_v6) (TRef.of (T := ⟨S8192x128x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S8192x128x1, .i32⟩) main_call1_v9) (broadcastInDim S8192x128x1 ![0, 1, 2] bcast_S1x1x1_S8192x128x1_0_1_2),
    TRef.binary (TRef.of (T := ⟨S8192x128x1, .i32⟩) main_call1_v5) (TRef.of (T := ⟨S8192x128x1, .i32⟩) main_call1_v9) (TRef.of (T := ⟨S8192x128x1, .i1⟩) main_call1_v10) (cmpi .sle),
    TRef.binary (TRef.of (T := ⟨S8192x128x1, .i1⟩) main_call1_v7) (TRef.of (T := ⟨S8192x128x1, .i1⟩) main_call1_v10) (TRef.of (T := ⟨S8192x128x1, .i1⟩) main_call1_v11) andi,
    TRef.nullary (TRef.of (T := ⟨S_, .i1⟩) main_call1_c_3) (constantI S_ 1 1#1),
    TRef.binary (TRef.of (T := ⟨S8192x128x1, .i1⟩) main_call1_v11) (TRef.of (T := ⟨S_, .i1⟩) main_call1_c_3) (TRef.of (T := ⟨S8192x128, .i1⟩) main_call1_v12) valid,
    TRef.binary (TRef.of (T := ⟨S8192x1024, .f32⟩) main_arg1) (TRef.of (T := ⟨S8192x128x1, .i32⟩) main_call1_v5) (TRef.of (T := ⟨S8192x128, .f32⟩) main_call1_v13) pick,
    TRef.nullary (TRef.of (T := ⟨S_, .f32⟩) main_call1_cst) (constant S_ .f32 0x7FC00000#32),
    TRef.unary (TRef.of (T := ⟨S_, .f32⟩) main_call1_cst) (TRef.of (T := ⟨S8192x128, .f32⟩) main_call1_v14) (broadcastInDim S8192x128 ![] bcast_S_S8192x128),
    TRef.ternary (TRef.of (T := ⟨S8192x128, .i1⟩) main_call1_v12) (TRef.of (T := ⟨S8192x128, .f32⟩) main_call1_v13) (TRef.of (T := ⟨S8192x128, .f32⟩) main_call1_v14) (TRef.of (T := ⟨S8192x128, .f32⟩) main_v19) select,
    unary main_v19 main_v20 ((transpose S128x8192 [1, 0] · transposes_S8192x128_S128x8192_1_0) : (⟨S8192x128, .f32⟩ : BufTy).Contents (Elt F) → (⟨S128x8192, .f32⟩ : BufTy).Contents (Elt F)),
    binary main_v10 main_v20 main_v21 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    unary main_arg2 main_v22 (broadcastInDim S8192x1 ![0] bcast_S8192_S8192x1_0 : (⟨S8192, .i32⟩ : BufTy).Contents (Elt F) → (⟨S8192x1, .i32⟩ : BufTy).Contents (Elt F)),
    unary main_arg3 main_v23 (broadcastInDim S1x8192 ![1] bcast_S8192_S1x8192_1 : (⟨S8192, .i32⟩ : BufTy).Contents (Elt F) → (⟨S1x8192, .i32⟩ : BufTy).Contents (Elt F)),
    unary main_v22 main_v24 (broadcastInDim S8192x8192 ![0, 1] bcast_S8192x1_S8192x8192_0_1 : (⟨S8192x1, .i32⟩ : BufTy).Contents (Elt F) → (⟨S8192x8192, .i32⟩ : BufTy).Contents (Elt F)),
    unary main_v23 main_v25 (broadcastInDim S8192x8192 ![0, 1] bcast_S1x8192_S8192x8192_0_1 : (⟨S1x8192, .i32⟩ : BufTy).Contents (Elt F) → (⟨S8192x8192, .i32⟩ : BufTy).Contents (Elt F)),
    binary main_v24 main_v25 main_v26 (cmpi .eq : (⟨S8192x8192, .i32⟩ : BufTy).Contents (Elt F) → (⟨S8192x8192, .i32⟩ : BufTy).Contents (Elt F) → (⟨S8192x8192, .i1⟩ : BufTy).Contents (Elt F)),
    TRef.ternary (TRef.of (T := ⟨S8192x8192, .i1⟩) main_v26) (TRef.of (T := ⟨S8192x8192, .f32⟩) main_v1) (TRef.of (T := ⟨S8192x8192, .f32⟩) main_v21) (TRef.of (T := ⟨S8192x8192, .f32⟩) main_v27) select ]

/-- The program's own line: the reduction by `and` over the index's one component, and the gather along the row. -/
abbrev ops : List (HloOp τ sig (Elt F)) :=
  opsOf (fun x v => Host.reduce IntOp.andi x v reducesTo_S8192x128x1_S8192x128_d2 h_S_) (fun x i => Host.gather gather_S8192x1024_S8192x128x1_S8192x128_n_1_0_0_1_2_11 x i)

set_option maxHeartbeats 4000000 in
/-- @main is that line. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., binary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub .., unary_bufs_sub .., unary_bufs_sub .., unary_bufs_sub .., unary_bufs_sub .., binary_bufs_sub .., ternary_bufs_sub ..⟩

/-! ## The result, as a term of the arguments -/

/-- Per row p and k < 128, the column number 128 · type(p) + k of the row's type slot. -/
def slotColumns (t : (⟨S8192, .i32⟩ : BufTy).Contents (Elt F)) : (⟨S8192x128, .i32⟩ : BufTy).Contents (Elt F) :=
  addi
    (broadcastInDim S8192x128 ![0, 1] bcast_S8192x1_S8192x128_0_1
      (muli (broadcastInDim S8192x1 ![0] bcast_S8192_S8192x1_0 t) (broadcastInDim S8192x1 ![] bcast_S_S8192x1 (constantI S_ 32 128#32))))
    (broadcastInDim S8192x128 ![0, 1] bcast_S1x128_S8192x128_0_1 (broadcastInDim S1x128 ![1] bcast_S128_S1x128_1 (iotaInDim S128 32 0)))

/-- A column number with a negative one wrapped by adding 1024, laid out with a last axis of one component. -/
def wrapped (idx : (⟨S8192x128, .i32⟩ : BufTy).Contents (Elt F)) : (⟨S8192x128x1, .i32⟩ : BufTy).Contents (Elt F) :=
  shapeCast S8192x128x1
    (select (cmpi .slt idx (broadcastInDim S8192x128 ![] bcast_S_S8192x128 (constantI S_ 32 0#32)))
      (addi idx (broadcastInDim S8192x128 ![] bcast_S_S8192x128 (constantI S_ 32 1024#32))) idx)
    shapeCasts_S8192x128_S8192x128x1

/-- The entries of `x` along each row at the given column numbers: the picked entry where the wrapped number is within
    0 … 1023, the fill value elsewhere. -/
def takeOf (valid : (⟨S8192x128x1, .i1⟩ : BufTy).Contents (Elt F) → (⟨S_, .i1⟩ : BufTy).Contents (Elt F) → (⟨S8192x128, .i1⟩ : BufTy).Contents (Elt F))
    (pick : (⟨S8192x1024, .f32⟩ : BufTy).Contents (Elt F) → (⟨S8192x128x1, .i32⟩ : BufTy).Contents (Elt F) → (⟨S8192x128, .f32⟩ : BufTy).Contents (Elt F))
    (x : (⟨S8192x1024, .f32⟩ : BufTy).Contents (Elt F)) (idx : (⟨S8192x128, .i32⟩ : BufTy).Contents (Elt F)) : (⟨S8192x128, .f32⟩ : BufTy).Contents (Elt F) :=
  select
    (valid
      (andi (cmpi .sge (wrapped (F := F) idx) (broadcastInDim S8192x128x1 ![] bcast_S_S8192x128x1 (constantI S_ 32 0#32)))
        (cmpi .sle (wrapped (F := F) idx) (broadcastInDim S8192x128x1 ![0, 1, 2] bcast_S1x1x1_S8192x128x1_0_1_2
          (broadcastInDim S1x1x1 ![2] bcast_S1_S1x1x1_2 (constantI S1 32 1023#32)))))
      (constantI S_ 1 1#1))
    (pick x (wrapped (F := F) idx))
    (broadcastInDim S8192x128 ![] bcast_S_S8192x128 (constant S_ .f32 0x7FC00000#32))

/-- The result: the rows' products where the type words agree, the gathered slots' products elsewhere. -/
def resOf (valid : (⟨S8192x128x1, .i1⟩ : BufTy).Contents (Elt F) → (⟨S_, .i1⟩ : BufTy).Contents (Elt F) → (⟨S8192x128, .i1⟩ : BufTy).Contents (Elt F))
    (pick : (⟨S8192x1024, .f32⟩ : BufTy).Contents (Elt F) → (⟨S8192x128x1, .i32⟩ : BufTy).Contents (Elt F) → (⟨S8192x128, .f32⟩ : BufTy).Contents (Elt F))
    (x0 x1 : (⟨S8192x1024, .f32⟩ : BufTy).Contents (Elt F)) (x2 x3 : (⟨S8192, .i32⟩ : BufTy).Contents (Elt F)) : (⟨S8192x8192, .f32⟩ : BufTy).Contents (Elt F) :=
  select
    (cmpi .eq (broadcastInDim S8192x8192 ![0, 1] bcast_S8192x1_S8192x8192_0_1 (broadcastInDim S8192x1 ![0] bcast_S8192_S8192x1_0 x2))
      (broadcastInDim S8192x8192 ![0, 1] bcast_S1x8192_S8192x8192_0_1 (broadcastInDim S1x8192 ![1] bcast_S8192_S1x8192_1 x3)))
    (Host.dotGeneral dot_S8192x1024_S1024x8192_S8192x8192_1_0_0_1_n_n none x0
      (transpose S1024x8192 [1, 0] x1 transposes_S8192x1024_S1024x8192_1_0))
    (Host.dotGeneral dot_S8192x128_S128x8192_S8192x8192_1_0_0_1_n_n none
      (takeOf (F := F) valid pick x0 (slotColumns (F := F) x2))
      (transpose S128x8192 [1, 0] (takeOf (F := F) valid pick x1 (slotColumns (F := F) x3)) transposes_S8192x128_S128x8192_1_0))

set_option maxRecDepth 16384 in
set_option maxHeartbeats 28800000 in
/-- From any buffer contents, after the line the result buffer holds the result term of the four argument buffers. -/
theorem res_of (valid : (⟨S8192x128x1, .i1⟩ : BufTy).Contents (Elt F) → (⟨S_, .i1⟩ : BufTy).Contents (Elt F) → (⟨S8192x128, .i1⟩ : BufTy).Contents (Elt F))
    (pick : (⟨S8192x1024, .f32⟩ : BufTy).Contents (Elt F) → (⟨S8192x128x1, .i32⟩ : BufTy).Contents (Elt F) → (⟨S8192x128, .f32⟩ : BufTy).Contents (Elt F)) (V : Valuation τ sig (Elt F)) :
    after (opsOf valid pick) V (main_v27 : DevRef τ sig)
      = resOf (F := F) valid pick (V (main_arg0 : DevRef τ sig)) (V (main_arg1 : DevRef τ sig)) (V (main_arg2 : DevRef τ sig))
          (V (main_arg3 : DevRef τ sig)) := by
  after_results_simp <;> rfl

/-- The program's result, of the launch contents of the arguments. -/
def res_main_v27 (m : (ℓ : Loc nD τ sig) → Buf (Elt F) ℓ) (c : Dev nD) : Buf (Elt F) ((c.tc : Thread nD τ).loc main_v27) :=
  resOf (F := F) (fun x v => Host.reduce IntOp.andi x v reducesTo_S8192x128x1_S8192x128_d2 h_S_) (fun x i => Host.gather gather_S8192x1024_S8192x128x1_S8192x128_n_1_0_0_1_2_11 x i)
    (m ((c.tc : Thread nD τ).loc main_arg0)) (m ((c.tc : Thread nD τ).loc main_arg1)) (m ((c.tc : Thread nD τ).loc main_arg2))
    (m ((c.tc : Thread nD τ).loc main_arg3))

/-- The same, named by its position among the values @main returns. -/
abbrev res_out0 (m : (ℓ : Loc nD τ sig) → Buf (Elt F) ℓ) (c : Dev nD) : Buf (Elt F) ((c.tc : Thread nD τ).loc main_v27) := res_main_v27 m c

set_option maxRecDepth 8192 in
set_option maxHeartbeats 28800000 in
/-- On every device, for any float values, from any memory with zero counters: every weakly fair execution of @main
    terminates with the result buffer at the result term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = res_main_v27 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v27).trans (res_of _ _ (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.ValueP

end
-- ==== Proof.PairScore.lean ====
/-
  The score of a pair of rows, as one function of the arrays.

  Two feature arrays of 8192 rows and 1024 columns carry, per row, a type word. The score of the pair (p, q) — row p of the
  first array against row q of the second — is

    * the dot product of the two whole rows, Σ_k x0(p, k) · x1(q, k), when the two rows' type words are the same word;
    * otherwise the dot product of the two rows' own type slots, Σ_k g1(p, k) · g2(q, k), where g1 and g2 hold, per row,
      the 128 entries of that row's slot (gathered from the row beforehand: here they are simply two more arrays).

  The sums are sums of extended reals over the column index; nothing about their order or grouping is said, and none is
  needed: both programs compared against this function sum exactly these products.
-/
import Idealize.ShloMosaic.Lib.ValueIdx
import Idealize.ShloMosaic.PureOps.Ideal

noncomputable section

open scoped BigOperators

namespace Cert.PairScore

open Idealize.ShloMosaic Idealize.ShloMosaic.ValueIdx

/-- The feature arrays' shape, the gathered slots' shape, the type vectors' shape, and the shape of the table of scores. -/
abbrev Feat : Shape := ⟨2, ![8192, 1024]⟩
abbrev Slots : Shape := ⟨2, ![8192, 128]⟩
abbrev Types : Shape := ⟨1, ![8192]⟩
abbrev Pairs : Shape := ⟨2, ![8192, 8192]⟩

/-- The score of the pair (p, q): the whole rows' dot product when the type words agree, the slots' dot product otherwise. -/
def score (x0 x1 : Feat.Idx → EReal) (g1 g2 : Slots.Idx → EReal) (t1 t2 : Types.Idx → BitVec 32) (p q : Fin 8192) : EReal :=
  Scalar.select (IntOp.cmpi .eq (t1 (ix1 p)) (t2 (ix1 q)))
    (∑ k : Fin 1024, x0 (ix2 p k) * x1 (ix2 q k))
    (∑ k : Fin 128, g1 (ix2 p k) * g2 (ix2 q k))

/-- The table of all scores, entry (p, q) the score of the pair (p, q). -/
def scores (x0 x1 : Feat.Idx → EReal) (g1 g2 : Slots.Idx → EReal) (t1 t2 : Types.Idx → BitVec 32) : Pairs.Idx → EReal :=
  fun i => score x0 x1 g1 g2 t1 t2 ⟨(i 0).val, idx2_lt0 i⟩ ⟨(i 1).val, idx2_lt1 i⟩

/-- The table read at the index built from the coordinates p and q. -/
theorem scores_ix2 (x0 x1 : Feat.Idx → EReal) (g1 g2 : Slots.Idx → EReal) (t1 t2 : Types.Idx → BitVec 32) (p q : Fin 8192) :
    scores x0 x1 g1 g2 t1 t2 (ix2 p q) = score x0 x1 g1 g2 t1 t2 p q := rfl

end Cert.PairScore

end
-- ==== Proof.RefScore.lean ====
/-
  The reference's result is the table of scores.

  The reference forms the whole table of dot products of rows of the first feature array with rows of the second (a
  product with the transposed second array), the whole table of dot products of the gathered slots (again through a
  transpose), the table of "row p's type word is row q's" and selects between the two products entry by entry. Read at
  the entry (p, q): the transposes swap the two coordinates back, each product is the sum over the shared coordinate, the
  two spread type vectors are read at p and at q — the score of the pair (p, q), with the reference's own gathered slots
  as the two slot arrays.
-/
import proofs.«139188_j51488067944939_2_alg».proof.Proof.RefRead
import proofs.«139188_j51488067944939_2_alg».proof.Proof.PairScore

noncomputable section

open scoped BigOperators

namespace Cert.ReferenceIdeal.Scores

open Cert.ReferenceIdeal Cert.ReferenceIdeal.ReadP Idealize.ShloMosaic Idealize.ShloMosaic.ValueIdx Cert.PairScore

/-- The reference's last stage, as a function of the four arguments, is the table of scores of the two feature arrays,
    of the two slot arrays the reference gathers from them, and of the two type vectors. -/
theorem result_eq (x0 x1 : (⟨S8192x1024, .f32⟩ : BufTy).Contents (Elt Ideal)) (x2 x3 : (⟨S8192, .i32⟩ : BufTy).Contents (Elt Ideal)) :
    val_main_v27 (F := Ideal) x0 x1 x2 x3
      = scores x0 x1 (val_main_v10 (F := Ideal) x0 x2) (val_main_v19 (F := Ideal) x1 x3) x2 x3 := by
  funext i
  obtain ⟨p, q, rfl⟩ : ∃ (p q : Fin 8192), i = ix2 p q := ⟨i 0, i 1, eq_ix2 i⟩
  -- the composed index maps, at the entry (p, q), are the coordinates themselves
  have e1 : idx_main_v22 (idx_main_v24 (ix2 p q)) = ix1 p :=
    funext fun a => Fin.ext (by match a with | ⟨0, _⟩ => rfl)
  have e2 : idx_main_v23 (idx_main_v25 (ix2 p q)) = ix1 q :=
    funext fun a => Fin.ext (by match a with | ⟨0, _⟩ => rfl)
  have e3 : ∀ k : Fin 1024, lidx_main_v1 (ix2 p q) k = ix2 p k := fun k =>
    funext fun a => Fin.ext (by match a with | ⟨0, _⟩ => rfl | ⟨1, _⟩ => rfl)
  have e4 : ∀ k : Fin 1024, idx_main_v0 (ridx_main_v1 (ix2 p q) k) = ix2 q k := fun k =>
    funext fun a => Fin.ext (by match a with | ⟨0, _⟩ => rfl | ⟨1, _⟩ => rfl)
  have e5 : ∀ k : Fin 128, lidx_main_v21 (ix2 p q) k = ix2 p k := fun k =>
    funext fun a => Fin.ext (by match a with | ⟨0, _⟩ => rfl | ⟨1, _⟩ => rfl)
  have e6 : ∀ k : Fin 128, idx_main_v20 (ridx_main_v21 (ix2 p q) k) = ix2 q k := fun k =>
    funext fun a => Fin.ext (by match a with | ⟨0, _⟩ => rfl | ⟨1, _⟩ => rfl)
  rw [scores_ix2, val_main_v27_apply, val_main_v26_apply, val_main_v24_apply, val_main_v22_apply, val_main_v25_apply,
    val_main_v23_apply, val_main_v1_apply, val_main_v21_apply]
  simp only [val_main_v0_apply, val_main_v20_apply, e1, e2, e3, e4, e5, e6]
  rfl

end Cert.ReferenceIdeal.Scores

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRhsT.lean ====
/-
  A matrix product whose right operand is stored transposed, into a zero accumulator, read at an index, at the ideal
  values.

  For an `a × b` left operand and a `c × b` right operand (dimension numbers: contract the left's axis 1 with the
  right's axis 1, no batch axes — `A · Bᵀ`), entry `(p, n)` of the product is `Σ_k A(p, k) · B(n, k)`: the sum of the
  exact products, the zero the accumulator starts from adding nothing.
-/
import Idealize.ShloMosaic.Lib.ValueIdx
import Idealize.ShloMosaic.PureOps.Ideal.Laws
import proofs.«139188_j51488067944939_2_alg».proof.Proof.LibMatmulZero

noncomputable section

namespace Cert.LibMatmulRhsT

open Idealize.ShloMosaic Idealize.ShloMosaic.ValueIdx

variable {a b c : ℕ}

/-- The dimension numbers of an `a × b` by (`c × b`)ᵀ product over the shared axis. -/
abbrev rhsTDims (wf : DotDims.WF ⟨2, ![a, b]⟩ ⟨2, ![c, b]⟩ ⟨2, ![a, c]⟩ [1] [1] [0] [0] [] []) :
    DotDims ⟨2, ![a, b]⟩ ⟨2, ![c, b]⟩ ⟨2, ![a, c]⟩ where
  lhsContracting := [1]
  rhsContracting := [1]
  lhsNonContracting := [0]
  rhsNonContracting := [0]
  lhsBatch := []
  rhsBatch := []
  wf := wf

/-- THE PRODUCT READ AT `(p, n)`, for the record `rhsTDims`. -/
theorem rhsTDims_matmul_apply {φ₁ φ₂ : FTy} (wf : DotDims.WF ⟨2, ![a, b]⟩ ⟨2, ![c, b]⟩ ⟨2, ![a, c]⟩ [1] [1] [0] [0] [] [])
    (A : FVec Ideal ⟨2, ![a, b]⟩ φ₁) (B : FVec Ideal ⟨2, ![c, b]⟩ φ₂) (p : Fin a) (n : Fin c) :
    FloatOps.matmul (rhsTDims wf) none A B (constant ⟨2, ![a, c]⟩ .f32 0x00000000#32) (ix2 p n)
      = ∑ k : Fin b, A (ix2 p k) * B (ix2 n k) := by
  refine Cert.LibMatmulZero.matmul_zero_apply (rhsTDims wf) b rfl rfl A B (ix2 p n) (fun k => ix2 p k) (fun k => ix2 n k) ?_ ?_
  · intro k ax
    match ax with
    | ⟨0, _⟩ =>
      show ((rhsTDims wf).lhsIdx (ix2 p n) ((contrEquiv1 (rhsTDims wf) b rfl rfl).symm k) 0).val = p.val
      unfold DotDims.lhsIdx
      rw [dif_neg (show ¬(0 : Fin 2) ∈ (rhsTDims wf).lhsBatch from List.not_mem_nil),
        dif_pos (show (0 : Fin 2) ∈ (rhsTDims wf).lhsNonContracting from List.mem_singleton.mpr rfl)]
      rfl
    | ⟨1, _⟩ =>
      exact ((rhsTDims wf).lhsIdx_val_of_single rfl (ix2 p n) _).trans (contrEquiv1_symm_val (rhsTDims wf) b rfl rfl k)
  · intro k ax
    match ax with
    | ⟨0, _⟩ =>
      show ((rhsTDims wf).rhsIdx (ix2 p n) ((contrEquiv1 (rhsTDims wf) b rfl rfl).symm k) 0).val = n.val
      unfold DotDims.rhsIdx
      rw [dif_neg (show ¬(0 : Fin 2) ∈ (rhsTDims wf).rhsBatch from List.not_mem_nil),
        dif_pos (show (0 : Fin 2) ∈ (rhsTDims wf).rhsNonContracting from List.mem_singleton.mpr rfl)]
      rfl
    | ⟨1, _⟩ =>
      exact ((rhsTDims wf).rhsIdx_val_of_single rfl (ix2 p n) _).trans (contrEquiv1_symm_val (rhsTDims wf) b rfl rfl k)

/-- THE PRODUCT READ AT `(p, n)`, for any dimension-number record with the six lists of such a product (each
    hypothesis is `rfl` for a record written with those literal fields, whatever proves its `wf`). -/
theorem matmul_rhsT_apply {φ₁ φ₂ : FTy} (d : DotDims ⟨2, ![a, b]⟩ ⟨2, ![c, b]⟩ ⟨2, ![a, c]⟩)
    (hlc : d.lhsContracting = [1]) (hrc : d.rhsContracting = [1]) (hln : d.lhsNonContracting = [0])
    (hrn : d.rhsNonContracting = [0]) (hlb : d.lhsBatch = []) (hrb : d.rhsBatch = [])
    (A : FVec Ideal ⟨2, ![a, b]⟩ φ₁) (B : FVec Ideal ⟨2, ![c, b]⟩ φ₂) (p : Fin a) (n : Fin c) :
    FloatOps.matmul d none A B (constant ⟨2, ![a, c]⟩ .f32 0x00000000#32) (ix2 p n)
      = ∑ k : Fin b, A (ix2 p k) * B (ix2 n k) := by
  obtain ⟨lc, rc, ln, rn, lb, rb, wf⟩ := d
  dsimp only at hlc hrc hln hrn hlb hrb
  subst hlc hrc hln hrn hlb hrb
  exact rhsTDims_matmul_apply wf A B p n

end Cert.LibMatmulRhsT

end
-- ==== Proof.KernelPayload.lean ====
/-
  What one grid point's body stores, read at one entry.

  At a grid point the body holds a 1024 × 1024 block `a` of the first feature array, a 512 × 1024 block `b` of the second,
  the matching 1024 × 128 and 512 × 128 blocks `sa`, `sb` of the gathered slots, a column `ta` of 1024 type words and a row
  `tb` of 512 type words. It stores a 1024 × 512 tile whose entry (r, s) is

      Σ_k a(r, k) · b(s, k)      when  ta(r) = tb(s)   (the same word),
      Σ_k sa(r, k) · sb(s, k)    otherwise.

  Both products contract the two operands' SECOND axes into a zero accumulator, so at the extended reals each entry is the
  plain sum of the products (a change of float format is the identity there); the column and the row of type words are
  spread over the tile before they are compared, so entry (r, s) of the mask compares `ta` at row r with `tb` at column s.
-/
import proofs.«139188_j51488067944939_2_alg».proof.Proof.Gen.KernelIdeal.Skeleton
import proofs.«139188_j51488067944939_2_alg».proof.Proof.LibMatmulRhsT
import Idealize.ShloMosaic.Lib.Pipeline.Value
import Idealize.ShloMosaic.Lib.ValueIdx

noncomputable section

open scoped BigOperators

namespace Cert.KernelIdeal.Tile

open Cert.KernelIdeal Cert.KernelIdeal.Gen Idealize.ShloMosaic Idealize.ShloMosaic.ValueIdx

/-- A column of 1024 words spread along the columns of a 1024 × 512 tile: entry (r, s) is the column's word of row r. -/
theorem column_spread (v : IVec S1024x1 32) (r : Fin 1024) (s : Fin 512) :
    broadcastTo S1024x512 v broadcasts_S1024x1_S1024x512 (ix2 r s) = v (ix2 r 0) :=
  broadcastTo_apply v broadcasts_S1024x1_S1024x512 (ix2 r s) (ix2 r 0) (fun a => match a with
    | ⟨0, _⟩ => by show r.val = if (1024 : Nat) = 1 then 0 else r.val; rw [if_neg (by decide)]
    | ⟨1, _⟩ => by show (0 : Nat) = if (1 : Nat) = 1 then 0 else s.val; rw [if_pos rfl])

/-- A row of 512 words spread along the rows of a 1024 × 512 tile: entry (r, s) is the row's word of column s. -/
theorem row_spread (v : IVec S1x512 32) (r : Fin 1024) (s : Fin 512) :
    broadcastTo S1024x512 v broadcasts_S1x512_S1024x512 (ix2 r s) = v (ix2 0 s) :=
  broadcastTo_apply v broadcasts_S1x512_S1024x512 (ix2 r s) (ix2 0 s) (fun a => match a with
    | ⟨0, _⟩ => by show (0 : Nat) = if (1 : Nat) = 1 then 0 else r.val; rw [if_pos rfl]
    | ⟨1, _⟩ => by show s.val = if (512 : Nat) = 1 then 0 else s.val; rw [if_neg (by decide)])

/-- THE STORED TILE AT (r, s): the whole rows' dot product where the two type words agree, the slots' dot product
    elsewhere. -/
theorem stored_apply (ta : IVec S1024x1 32) (tb : IVec S1x512 32) (sa : FVec Ideal S1024x128 .bf16)
    (sb : FVec Ideal S512x128 .bf16) (a : FVec Ideal S1024x1024 .f32) (b : FVec Ideal S512x1024 .f32) (r : Fin 1024) (s : Fin 512) :
    k0_pay1 (F := Ideal) ta tb sa sb a b (ix2 r s)
      = Scalar.select (IntOp.cmpi .eq (ta (ix2 r 0)) (tb (ix2 0 s)))
          (∑ k : Fin 1024, a (ix2 r k) * b (ix2 s k))
          (∑ k : Fin 128, sa (ix2 r k) * sb (ix2 s k)) := by
  unfold k0_pay1
  show Scalar.select (IntOp.cmpi .eq
        (broadcastTo S1024x512 (shapeCast S1024x1 ta shapeCasts_S1024x1_S1024x1) broadcasts_S1024x1_S1024x512 (ix2 r s))
        (broadcastTo S1024x512 (shapeCast S1x512 tb shapeCasts_S1x512_S1x512) broadcasts_S1x512_S1024x512 (ix2 r s)))
      (FloatOps.matmul dot_S1024x1024_S512x1024_S1024x512_1_1_0_0_n_n none (truncf .bf16 a bitsLt_bf16_f32)
        (truncf .bf16 b bitsLt_bf16_f32) (constant S1024x512 .f32 0x00000000#32) (ix2 r s))
      (FloatOps.matmul dot_S1024x128_S512x128_S1024x512_1_1_0_0_n_n none (shapeCast S1024x128 sa shapeCasts_S1024x128_S1024x128)
        (shapeCast S512x128 sb shapeCasts_S512x128_S512x128) (constant S1024x512 .f32 0x00000000#32) (ix2 r s)) = _
  rw [shapeCast_self, shapeCast_self, shapeCast_self, shapeCast_self, column_spread, row_spread,
    Cert.LibMatmulRhsT.matmul_rhsT_apply _ rfl rfl rfl rfl rfl rfl,
    Cert.LibMatmulRhsT.matmul_rhsT_apply _ rfl rfl rfl rfl rfl rfl]
  rfl

end Cert.KernelIdeal.Tile

end
-- ==== Proof.KernelGrid.lean ====
/-
  The grid of the one region: where each window's block sits at each point.

  The region has 8 × 16 = 128 grid points, point t at coordinates (t / 16, t mod 16). The output's block at a point is the
  block (t / 16, t mod 16) of the 8 × 16 grid of 1024 × 512 blocks; the blocks of the first feature array, of the first
  slot array and of the column of type words follow the output's ROW block, those of the second feature array, of the
  second slot array and of the row of type words follow the output's COLUMN block, and each has 0 as its other block
  coordinate. All of it is decided over the 128 points.
-/
import proofs.«139188_j51488067944939_2_alg».proof.Proof.Gen.KernelIdeal.Points
import proofs.«139188_j51488067944939_2_alg».proof.Proof.Gen.KernelIdeal.Launch

noncomputable section

namespace Cert.KernelIdeal.Grid

open Cert.KernelIdeal Cert.KernelIdeal.Gen Idealize.ShloMosaic

theorem zero_offsets : (![0, 0] : Fin 2 → Nat) = fun _ => 0 := funext fun a => by fin_cases a <;> rfl

/-- The output's block at point t is the block (t / 16, t mod 16). -/
theorem idx_out : ∀ t : Fin cfg0.N,
    win0_6.index t (0 : Fin 2) = t.val / 16 ∧ win0_6.index t (1 : Fin 2) = t.val % 16 :=
  (by decide +kernel : ∀ t : Fin grid0.N, win0_6.index t (0 : Fin 2) = t.val / 16 ∧ win0_6.index t (1 : Fin 2) = t.val % 16)

/-- Each input window's block index in terms of the output's: the first coordinate follows the output's row block or
    column block, the other is 0. -/
theorem idx_in : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (1 : Fin 2) ∧ win0_3.index t (1 : Fin 2) = 0
    ∧ win0_4.index t (0 : Fin 2) = win0_6.index t (0 : Fin 2) ∧ win0_4.index t (1 : Fin 2) = 0
    ∧ win0_5.index t (0 : Fin 2) = 0 ∧ win0_5.index t (1 : Fin 2) = win0_6.index t (1 : Fin 2) :=
  (by decide +kernel : ∀ t : Fin grid0.N, _)

end Cert.KernelIdeal.Grid

end
-- ==== Proof.KernelReads.lean ====
/-
  Each input block, read at an entry, is the array's entry at the block's offset plus the entry.

  At point t the first feature array's block holds rows 1024·I … of the array (I the output's row block at t) and all
  1024 columns; the second's holds rows 512·J … (J the output's column block); the two slot arrays' blocks hold the same
  rows and all 128 columns; the column of type words' block holds rows 1024·I …; the row of type words' block holds columns
  512·J …. Each is stated for an entry y of the block and ANY index i of the array with those coordinates.
-/
import proofs.«139188_j51488067944939_2_alg».proof.Proof.Gen.KernelIdeal.Frame
import proofs.«139188_j51488067944939_2_alg».proof.Proof.KernelGrid
import Idealize.ShloMosaic.PureOps.Ideal

noncomputable section

namespace Cert.KernelIdeal.Reads

open Cert.KernelIdeal Cert.KernelIdeal.Gen Cert.KernelIdeal.Grid Idealize.ShloMosaic Idealize.ShloMosaic.TcCoe Idealize.SL.Sem

variable (m : (ℓ : Loc nD τ sig) → Buf (Elt Ideal) ℓ)

theorem feat1_block (c : Dev nD) (t : Fin cfg0.N) (y : S1024x1024.Idx) (i : S8192x1024.Idx)
    (h0 : (i 0).val = win0_6.index t (0 : Fin 2) * 1024 + (y 0).val) (h1 : (i 1).val = (y 1).val) :
    (iblk m c 0 t : S1024x1024.Idx → EReal) y = (V m c main_arg0 : S8192x1024.Idx → EReal) i := by
  obtain ⟨e0, e1, -⟩ := idx_in t
  unfold iblk
  rw [View.read_apply]
  refine (cast_eq _ _).trans (congrArg (V m c main_arg0 : S8192x1024.Idx → EReal) (funext fun a => Fin.ext ?_))
  match a with
  | ⟨0, _⟩ => show win0_0.index t (0 : Fin 2) * 1024 + 1 * (y 0).val = (i 0).val; omega
  | ⟨1, _⟩ => show win0_0.index t (1 : Fin 2) * 1024 + 1 * (y 1).val = (i 1).val; omega

theorem feat2_block (c : Dev nD) (t : Fin cfg0.N) (y : S512x1024.Idx) (i : S8192x1024.Idx)
    (h0 : (i 0).val = win0_6.index t (1 : Fin 2) * 512 + (y 0).val) (h1 : (i 1).val = (y 1).val) :
    (iblk m c 1 t : S512x1024.Idx → EReal) y = (V m c main_arg1 : S8192x1024.Idx → EReal) i := by
  obtain ⟨-, -, e0, e1, -⟩ := idx_in t
  unfold iblk
  rw [View.read_apply]
  refine (cast_eq _ _).trans (congrArg (V m c main_arg1 : S8192x1024.Idx → EReal) (funext fun a => Fin.ext ?_))
  match a with
  | ⟨0, _⟩ => show win0_1.index t (0 : Fin 2) * 512 + 1 * (y 0).val = (i 0).val; omega
  | ⟨1, _⟩ => show win0_1.index t (1 : Fin 2) * 1024 + 1 * (y 1).val = (i 1).val; omega

theorem slot1_block (c : Dev nD) (t : Fin cfg0.N) (y : S1024x128.Idx) (i : S8192x128.Idx)
    (h0 : (i 0).val = win0_6.index t (0 : Fin 2) * 1024 + (y 0).val) (h1 : (i 1).val = (y 1).val) :
    (iblk m c 2 t : S1024x128.Idx → EReal) y = (V m c main_v9 : S8192x128.Idx → EReal) i := by
  obtain ⟨-, -, -, -, e0, e1, -⟩ := idx_in t
  unfold iblk
  rw [View.read_apply]
  refine (cast_eq _ _).trans (congrArg (V m c main_v9 : S8192x128.Idx → EReal) (funext fun a => Fin.ext ?_))
  match a with
  | ⟨0, _⟩ => show win0_2.index t (0 : Fin 2) * 1024 + 1 * (y 0).val = (i 0).val; omega
  | ⟨1, _⟩ => show win0_2.index t (1 : Fin 2) * 128 + 1 * (y 1).val = (i 1).val; omega

theorem slot2_block (c : Dev nD) (t : Fin cfg0.N) (y : S512x128.Idx) (i : S8192x128.Idx)
    (h0 : (i 0).val = win0_6.index t (1 : Fin 2) * 512 + (y 0).val) (h1 : (i 1).val = (y 1).val) :
    (iblk m c 3 t : S512x128.Idx → EReal) y = (V m c main_v19 : S8192x128.Idx → EReal) i := by
  obtain ⟨-, -, -, -, -, -, e0, e1, -⟩ := idx_in t
  unfold iblk
  rw [View.read_apply]
  refine (cast_eq _ _).trans (congrArg (V m c main_v19 : S8192x128.Idx → EReal) (funext fun a => Fin.ext ?_))
  match a with
  | ⟨0, _⟩ => show win0_3.index t (0 : Fin 2) * 512 + 1 * (y 0).val = (i 0).val; omega
  | ⟨1, _⟩ => show win0_3.index t (1 : Fin 2) * 128 + 1 * (y 1).val = (i 1).val; omega

theorem column_block (c : Dev nD) (t : Fin cfg0.N) (y : S1024x1.Idx) (i : S8192x1.Idx)
    (h0 : (i 0).val = win0_6.index t (0 : Fin 2) * 1024 + (y 0).val) (h1 : (i 1).val = (y 1).val) :
    (iblk m c 4 t : S1024x1.Idx → BitVec 32) y = (V m c main_v20 : S8192x1.Idx → BitVec 32) i := by
  obtain ⟨-, -, -, -, -, -, -, -, e0, e1, -⟩ := idx_in t
  unfold iblk
  rw [View.read_apply]
  refine (cast_eq _ _).trans (congrArg (V m c main_v20 : S8192x1.Idx → BitVec 32) (funext fun a => Fin.ext ?_))
  match a with
  | ⟨0, _⟩ => show win0_4.index t (0 : Fin 2) * 1024 + 1 * (y 0).val = (i 0).val; omega
  | ⟨1, _⟩ => show win0_4.index t (1 : Fin 2) * 1 + 1 * (y 1).val = (i 1).val; omega

theorem row_block (c : Dev nD) (t : Fin cfg0.N) (y : S1x512.Idx) (i : S1x8192.Idx)
    (h0 : (i 0).val = (y 0).val) (h1 : (i 1).val = win0_6.index t (1 : Fin 2) * 512 + (y 1).val) :
    (iblk m c 5 t : S1x512.Idx → BitVec 32) y = (V m c main_v21 : S1x8192.Idx → BitVec 32) i := by
  obtain ⟨-, -, -, -, -, -, -, -, -, -, e0, e1⟩ := idx_in t
  unfold iblk
  rw [View.read_apply]
  refine (cast_eq _ _).trans (congrArg (V m c main_v21 : S1x8192.Idx → BitVec 32) (funext fun a => Fin.ext ?_))
  match a with
  | ⟨0, _⟩ => show win0_5.index t (0 : Fin 2) * 1 + 1 * (y 0).val = (i 0).val; omega
  | ⟨1, _⟩ => show win0_5.index t (1 : Fin 2) * 512 + 1 * (y 1).val = (i 1).val; omega

end Cert.KernelIdeal.Reads

end
-- ==== Proof.KernelBlocks.lean ====
/-
  From the tiles to the whole table.

  The region runs the body at the 8 × 16 grid points. At the point with coordinates (I, J) the body reads rows
  1024·I … 1024·I + 1023 of the first feature array and of the first slot array and of the column of type words, rows
  512·J … 512·J + 511 of the second feature array and of the second slot array, and columns 512·J … 512·J + 511 of the row
  of type words; the tile it stores is written back as the block (I, J) of the result: rows 1024·I …, columns 512·J ….
  Entry (r, s) of that tile is therefore the score of the pair (1024·I + r, 512·J + s) — the same function of the whole
  arrays at every point —, the 128 blocks tile the 8192 × 8192 result, and so after the run the result array is the table
  of scores of the arrays as the region found them.
-/
import proofs.«139188_j51488067944939_2_alg».proof.Proof.Gen.KernelIdeal.Value
import proofs.«139188_j51488067944939_2_alg».proof.Proof.KernelPayload
import proofs.«139188_j51488067944939_2_alg».proof.Proof.KernelGrid
import proofs.«139188_j51488067944939_2_alg».proof.Proof.KernelReads
import proofs.«139188_j51488067944939_2_alg».proof.Proof.PairScore
import Idealize.ShloMosaic.Lib.Pipeline.Value
import Idealize.ShloMosaic.Lib.ValueIdx

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.PairScore Cert.KernelIdeal.Grid Cert.KernelIdeal.Reads
open Idealize.ShloMosaic.Pipeline (Dat)

variable (m : (ℓ : Loc nD τ sig) → Buf (Elt Ideal) ℓ) (ρ : Dev nD → PrngReg)

/-! ## The table, from the arrays as the region finds them -/

/-- Row p's type word, read off the column of type words. -/
abbrev columnWord (tc : S8192x1.Idx → BitVec 32) : Types.Idx → BitVec 32 := fun i => tc (ix2 (⟨(i 0).val, (i 0).isLt⟩ : Fin 8192) (0 : Fin 1))
/-- Row q's type word, read off the row of type words. -/
abbrev rowWord (tr : S1x8192.Idx → BitVec 32) : Types.Idx → BitVec 32 := fun i => tr (ix2 (0 : Fin 1) (⟨(i 0).val, (i 0).isLt⟩ : Fin 8192))

/-- The table of scores of the six arrays the region reads, as it finds them. -/
def table (c : Dev nD) : S8192x8192.Idx → EReal :=
  scores (V m c main_arg0) (V m c main_arg1) (V m c main_v9) (V m c main_v19)
    (columnWord (V m c main_v20)) (rowWord (V m c main_v21))

/-! ## A tile entry is a score -/

/-- If row r of the blocks `a`, `sa`, `ta` is row P of the arrays and row s of `b`, `sb` (column s of `tb`) is row Q,
    then entry (r, s) of the stored tile is the score of the pair (P, Q). -/
theorem tile_entry (x0 x1 : S8192x1024.Idx → EReal) (g1 g2 : S8192x128.Idx → EReal) (tc : S8192x1.Idx → BitVec 32)
    (tr : S1x8192.Idx → BitVec 32) (a : S1024x1024.Idx → EReal) (b : S512x1024.Idx → EReal) (sa : S1024x128.Idx → EReal)
    (sb : S512x128.Idx → EReal) (ta : S1024x1.Idx → BitVec 32) (tb : S1x512.Idx → BitVec 32) (y : S1024x512.Idx) (P Q : Fin 8192)
    (ha : ∀ k : Fin 1024, a (ix2 (⟨(y 0).val, idx2_lt0 y⟩ : Fin 1024) k) = x0 (ix2 P k))
    (hb : ∀ k : Fin 1024, b (ix2 (⟨(y 1).val, idx2_lt1 y⟩ : Fin 512) k) = x1 (ix2 Q k))
    (hsa : ∀ k : Fin 128, sa (ix2 (⟨(y 0).val, idx2_lt0 y⟩ : Fin 1024) k) = g1 (ix2 P k))
    (hsb : ∀ k : Fin 128, sb (ix2 (⟨(y 1).val, idx2_lt1 y⟩ : Fin 512) k) = g2 (ix2 Q k))
    (hta : ta (ix2 (⟨(y 0).val, idx2_lt0 y⟩ : Fin 1024) (0 : Fin 1)) = tc (ix2 P (0 : Fin 1)))
    (htb : tb (ix2 (0 : Fin 1) (⟨(y 1).val, idx2_lt1 y⟩ : Fin 512)) = tr (ix2 (0 : Fin 1) Q)) :
    k0_pay1 (F := Ideal) ta tb sa sb a b y = score x0 x1 g1 g2 (columnWord tc) (rowWord tr) P Q := by
  obtain ⟨r, s, rfl⟩ : ∃ (r : Fin 1024) (s : Fin 512), y = ix2 r s := ⟨y 0, y 1, eq_ix2 y⟩
  have ha' : ∀ k : Fin 1024, a (ix2 r k) = x0 (ix2 P k) := ha
  have hb' : ∀ k : Fin 1024, b (ix2 s k) = x1 (ix2 Q k) := hb
  have hsa' : ∀ k : Fin 128, sa (ix2 r k) = g1 (ix2 P k) := hsa
  have hsb' : ∀ k : Fin 128, sb (ix2 s k) = g2 (ix2 Q k) := hsb
  have hta' : ta (ix2 r (0 : Fin 1)) = tc (ix2 P (0 : Fin 1)) := hta
  have htb' : tb (ix2 (0 : Fin 1) s) = tr (ix2 (0 : Fin 1) Q) := htb
  rw [Tile.stored_apply, hta', htb']
  simp only [ha', hb', hsa', hsb']
  rfl

/-! ## What a point writes back is its block of the table -/

/-- WHAT POINT `t` WRITES BACK is block `t` of the table. -/
theorem flushed_eq (c : Dev nD) (t : Fin cfg0.N) :
    (dats m 0 c).flushed 6 t = ((cfg0.win 6).blk t).view.read (Elt Ideal) (table m c) := by
  rw [flushed6]
  unfold out0_6
  rw [View.canon_unit_zero zero_offsets]
  simp only [View.ld_unit_zero (S := S1024x1) zero_offsets, View.ld_unit_zero (S := S1x512) zero_offsets,
    View.ld_unit_zero (S := S1024x128) zero_offsets, View.ld_unit_zero (S := S512x128) zero_offsets,
    View.ld_unit_zero (S := S1024x1024) zero_offsets, View.ld_unit_zero (S := S512x1024) zero_offsets]
  obtain ⟨o0, o1⟩ := idx_out t
  have hN : cfg0.N = 128 := N_0
  have ht : t.val < 128 := lt_of_lt_of_eq t.isLt hN
  funext j
  have hr : (j 0).val < 1024 := (j 0).isLt
  have hs : (j 1).val < 512 := (j 1).isLt
  have hP : win0_6.index t (0 : Fin 2) * 1024 + (j 0).val < 8192 := by omega
  have hQ : win0_6.index t (1 : Fin 2) * 512 + (j 1).val < 8192 := by omega
  rw [View.read_apply]
  refine Eq.trans ?_ (cast_eq _ _).symm
  refine (tile_entry (V m c main_arg0) (V m c main_arg1) (V m c main_v9) (V m c main_v19) (V m c main_v20) (V m c main_v21)
    (iblk m c 0 t) (iblk m c 1 t) (iblk m c 2 t) (iblk m c 3 t) (iblk m c 4 t) (iblk m c 5 t) j
    ⟨win0_6.index t (0 : Fin 2) * 1024 + (j 0).val, hP⟩ ⟨win0_6.index t (1 : Fin 2) * 512 + (j 1).val, hQ⟩
    (fun k => feat1_block m c t (ix2 (⟨(j 0).val, hr⟩ : Fin 1024) k)
      (ix2 (⟨win0_6.index t (0 : Fin 2) * 1024 + (j 0).val, hP⟩ : Fin 8192) k) rfl rfl)
    (fun k => feat2_block m c t (ix2 (⟨(j 1).val, hs⟩ : Fin 512) k)
      (ix2 (⟨win0_6.index t (1 : Fin 2) * 512 + (j 1).val, hQ⟩ : Fin 8192) k) rfl rfl)
    (fun k => slot1_block m c t (ix2 (⟨(j 0).val, hr⟩ : Fin 1024) k)
      (ix2 (⟨win0_6.index t (0 : Fin 2) * 1024 + (j 0).val, hP⟩ : Fin 8192) k) rfl rfl)
    (fun k => slot2_block m c t (ix2 (⟨(j 1).val, hs⟩ : Fin 512) k)
      (ix2 (⟨win0_6.index t (1 : Fin 2) * 512 + (j 1).val, hQ⟩ : Fin 8192) k) rfl rfl)
    (column_block m c t (ix2 (⟨(j 0).val, hr⟩ : Fin 1024) (0 : Fin 1))
      (ix2 (⟨win0_6.index t (0 : Fin 2) * 1024 + (j 0).val, hP⟩ : Fin 8192) (0 : Fin 1)) rfl rfl)
    (row_block m c t (ix2 (0 : Fin 1) (⟨(j 1).val, hs⟩ : Fin 512))
      (ix2 (0 : Fin 1) (⟨win0_6.index t (1 : Fin 2) * 512 + (j 1).val, hQ⟩ : Fin 8192)) rfl rfl)).trans ?_
  unfold table scores
  refine congrArg₂ (score (V m c main_arg0) (V m c main_arg1) (V m c main_v9) (V m c main_v19)
    (columnWord (V m c main_v20)) (rowWord (V m c main_v21))) (Fin.ext ?_) (Fin.ext ?_)
  · show win0_6.index t (0 : Fin 2) * 1024 + (j 0).val = win0_6.index t (0 : Fin 2) * 1024 + 1 * (j 0).val; omega
  · show win0_6.index t (1 : Fin 2) * 512 + (j 1).val = win0_6.index t (1 : Fin 2) * 512 + 1 * (j 1).val; omega

/-! ## The blocks tile the result -/

/-- An index of the result is in point `t`'s block iff each coordinate is in the block's range on its axis. -/
theorem mem_blk (t : Fin cfg0.N) (i : S8192x8192.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v22).slice (win0_6.rect t)).set ↔ _
  rw [View.set_slice_whole, Rect.mem_set_unit]
  exact Iff.rfl

/-- Every index of the result is in some writing point's block: row p is in row block p / 1024, column q in column
    block q / 512. -/
theorem covered (i : S8192x8192.Idx) :
    ∃ t : Fin cfg0.N, (cfg0.win 6).flush t = true ∧ i ∈ ((cfg0.win 6).blk t).view.set := by
  have hi0 : (i 0).val < 8192 := (i 0).isLt
  have hi1 : (i 1).val < 8192 := (i 1).isLt
  have hN : cfg0.N = 128 := N_0
  obtain ⟨t, ht⟩ : ∃ t : Fin cfg0.N, t.val = (i 0).val / 1024 * 16 + (i 1).val / 512 :=
    ⟨⟨(i 0).val / 1024 * 16 + (i 1).val / 512, by rw [hN]; omega⟩, rfl⟩
  obtain ⟨o0, o1⟩ := idx_out t
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- THE RESULT ARRAY after the run is the table. -/
theorem final (c : Dev nD) : (dats m 0 c).arrAt 6 cfg0.N = table m c :=
  (dats m 0 c).arrAt_eq_of_cover 6 (table m c) (fun t _ => flushed_eq m c t) (covered)

/-! ## The run, read -/

/-- The frame run re-posted: the result array at the table of scores, the arguments unchanged. -/
theorem run : θ_run defs (onTc (τ := τ) (main (F := Ideal))) ⟨m, fun _ => 0, ρ⟩ fun r => ∀ c : Dev nD,
      r.2.mem ((c : Thread nD τ).loc main_v22) = table m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.KernelHost.lean ====
/-
  What the region finds in the four arrays the host prepares for it.

  Before the one kernel region the program computes, from the four arguments, four more arrays: for each of the two
  feature arrays the per-row type slot (row p's 128 entries at the columns 128 · type(p) + 0 … 127, taken along the row by
  a gather, a negative column number wrapped by adding 1024 and a fill value put wherever the wrapped number is still
  outside 0 … 1023), narrowed to bf16; and the two type vectors laid out as a column of 8192 words and as a row of 8192
  words. This module says what each of those four arrays holds when the region is entered.

  The 66 operations that compute them are stated, like the reference's, for two ARBITRARY functions `valid` and `pick` in
  the places of the range test's reduction and of the gather: what the four buffers hold after the operations is the same
  term of the arguments whatever those two functions are; the program's own operations are the instance at the two real
  ones. At that instance

    * the two slot arrays hold exactly what the reference's own gather stages hold (the two programs apply the same
      operations to the same arguments), read at bf16 — a change of format, the identity at the extended reals;
    * the column holds the first type vector, entry (p, 0) the word of row p; the row holds the second, entry (0, q)
      the word of row q.
-/
import proofs.«139188_j51488067944939_2_alg».proof.Proof.Gen.KernelIdeal.Frame
import proofs.«139188_j51488067944939_2_alg».proof.Proof.RefRead
import Idealize.ShloMosaic.Lib.Pipeline.Value
import Idealize.ShloMosaic.Lib.ValueIdx
import Idealize.ShloMosaic.Lib.StableHlo.Run

noncomputable section

namespace Cert.KernelIdeal.Prepared

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The operations before the region -/

/-- The 66 host operations before the region, in order, with `valid` for the "every component in range" reduction and
    `pick` for the gather of both calls. -/
abbrev prepOf (valid : (⟨S8192x128x1, .i1⟩ : BufTy).Contents (Elt F) → (⟨S_, .i1⟩ : BufTy).Contents (Elt F) → (⟨S8192x128, .i1⟩ : BufTy).Contents (Elt F)) (pick : (⟨S8192x1024, .f32⟩ : BufTy).Contents (Elt F) → (⟨S8192x128x1, .i32⟩ : BufTy).Contents (Elt F) → (⟨S8192x128, .f32⟩ : BufTy).Contents (Elt F)) : List (HloOp τ sig (Elt F)) :=
  [ StableHlo.unary main_arg2 main_v0 (broadcastInDim S8192x1 ![0] bcast_S8192_S8192x1_0 : (⟨S8192, .i32⟩ : BufTy).Contents (Elt F) → (⟨S8192x1, .i32⟩ : BufTy).Contents (Elt F)),
    StableHlo.nullary main_c (constantI S_ 32 128#32),
    StableHlo.unary main_c main_v1 (broadcastInDim S8192x1 ![] bcast_S_S8192x1 : (⟨S_, .i32⟩ : BufTy).Contents (Elt F) → (⟨S8192x1, .i32⟩ : BufTy).Contents (Elt F)),
    StableHlo.binary main_v0 main_v1 main_v2 (muli : (⟨S8192x1, .i32⟩ : BufTy).Contents (Elt F) → (⟨S8192x1, .i32⟩ : BufTy).Contents (Elt F) → (⟨S8192x1, .i32⟩ : BufTy).Contents (Elt F)),
    StableHlo.nullary main_v3 (iotaInDim S128 32 0),
    StableHlo.unary main_v3 main_v4 (broadcastInDim S1x128 ![1] bcast_S128_S1x128_1 : (⟨S128, .i32⟩ : BufTy).Contents (Elt F) → (⟨S1x128, .i32⟩ : BufTy).Contents (Elt F)),
    StableHlo.unary main_v2 main_v5 (broadcastInDim S8192x128 ![0, 1] bcast_S8192x1_S8192x128_0_1 : (⟨S8192x1, .i32⟩ : BufTy).Contents (Elt F) → (⟨S8192x128, .i32⟩ : BufTy).Contents (Elt F)),
    StableHlo.unary main_v4 main_v6 (broadcastInDim S8192x128 ![0, 1] bcast_S1x128_S8192x128_0_1 : (⟨S1x128, .i32⟩ : BufTy).Contents (Elt F) → (⟨S8192x128, .i32⟩ : BufTy).Contents (Elt F)),
    StableHlo.binary main_v5 main_v6 main_v7 (addi : (⟨S8192x128, .i32⟩ : BufTy).Contents (Elt F) → (⟨S8192x128, .i32⟩ : BufTy).Contents (Elt F) → (⟨S8192x128, .i32⟩ : BufTy).Contents (Elt F)),
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S8192x128, .i32⟩) (broadcastInDim S8192x128 ![] bcast_S_S8192x128),
    StableHlo.TRef.binary (.of main_v7 : StableHlo.TRef sig ⟨S8192x128, .i32⟩) (.of main_call0_v0 : StableHlo.TRef sig ⟨S8192x128, .i32⟩) (.of main_call0_v1 : StableHlo.TRef sig ⟨S8192x128, .i1⟩) (cmpi .slt),
    StableHlo.TRef.nullary (.of main_call0_c_0 : StableHlo.TRef sig ⟨S_, .i32⟩) (constantI S_ 32 1024#32),
    StableHlo.TRef.unary (.of main_call0_c_0 : StableHlo.TRef sig ⟨S_, .i32⟩) (.of main_call0_v2 : StableHlo.TRef sig ⟨S8192x128, .i32⟩) (broadcastInDim S8192x128 ![] bcast_S_S8192x128),
    StableHlo.TRef.binary (.of main_v7 : StableHlo.TRef sig ⟨S8192x128, .i32⟩) (.of main_call0_v2 : StableHlo.TRef sig ⟨S8192x128, .i32⟩) (.of main_call0_v3 : StableHlo.TRef sig ⟨S8192x128, .i32⟩) addi,
    StableHlo.TRef.ternary (.of main_call0_v1 : StableHlo.TRef sig ⟨S8192x128, .i1⟩) (.of main_call0_v3 : StableHlo.TRef sig ⟨S8192x128, .i32⟩) (.of main_v7 : StableHlo.TRef sig ⟨S8192x128, .i32⟩) (.of main_call0_v4 : StableHlo.TRef sig ⟨S8192x128, .i32⟩) select,
    StableHlo.TRef.reshape (.of main_call0_v4 : StableHlo.TRef sig ⟨S8192x128, .i32⟩) (.of main_call0_v5 : StableHlo.TRef sig ⟨S8192x128x1, .i32⟩) rfl shapeCasts_S8192x128_S8192x128x1,
    StableHlo.TRef.nullary (.of main_call0_c_1 : StableHlo.TRef sig ⟨S1, .i32⟩) (constantI S1 32 1023#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S8192x128x1, .i32⟩) (broadcastInDim S8192x128x1 ![] bcast_S_S8192x128x1),
    StableHlo.TRef.binary (.of main_call0_v5 : StableHlo.TRef sig ⟨S8192x128x1, .i32⟩) (.of main_call0_v6 : StableHlo.TRef sig ⟨S8192x128x1, .i32⟩) (.of main_call0_v7 : StableHlo.TRef sig ⟨S8192x128x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S8192x128x1, .i32⟩) (broadcastInDim S8192x128x1 ![0, 1, 2] bcast_S1x1x1_S8192x128x1_0_1_2),
    StableHlo.TRef.binary (.of main_call0_v5 : StableHlo.TRef sig ⟨S8192x128x1, .i32⟩) (.of main_call0_v9 : StableHlo.TRef sig ⟨S8192x128x1, .i32⟩) (.of main_call0_v10 : StableHlo.TRef sig ⟨S8192x128x1, .i1⟩) (cmpi .sle),
    StableHlo.TRef.binary (.of main_call0_v7 : StableHlo.TRef sig ⟨S8192x128x1, .i1⟩) (.of main_call0_v10 : StableHlo.TRef sig ⟨S8192x128x1, .i1⟩) (.of main_call0_v11 : StableHlo.TRef sig ⟨S8192x128x1, .i1⟩) andi,
    StableHlo.TRef.nullary (.of main_call0_c_3 : StableHlo.TRef sig ⟨S_, .i1⟩) (constantI S_ 1 1#1),
    StableHlo.TRef.binary (.of main_call0_v11 : StableHlo.TRef sig ⟨S8192x128x1, .i1⟩) (.of main_call0_c_3 : StableHlo.TRef sig ⟨S_, .i1⟩) (.of main_call0_v12 : StableHlo.TRef sig ⟨S8192x128, .i1⟩) valid,
    StableHlo.TRef.binary (.of main_arg0 : StableHlo.TRef sig ⟨S8192x1024, .f32⟩) (.of main_call0_v5 : StableHlo.TRef sig ⟨S8192x128x1, .i32⟩) (.of main_call0_v13 : StableHlo.TRef sig ⟨S8192x128, .f32⟩) pick,
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S8192x128, .f32⟩) (broadcastInDim S8192x128 ![] bcast_S_S8192x128),
    StableHlo.TRef.ternary (.of main_call0_v12 : StableHlo.TRef sig ⟨S8192x128, .i1⟩) (.of main_call0_v13 : StableHlo.TRef sig ⟨S8192x128, .f32⟩) (.of main_call0_v14 : StableHlo.TRef sig ⟨S8192x128, .f32⟩) (.of main_v8 : StableHlo.TRef sig ⟨S8192x128, .f32⟩) select,
    StableHlo.unary main_v8 main_v9 ((truncf .bf16 · bitsLt_bf16_f32) : (⟨S8192x128, .f32⟩ : BufTy).Contents (Elt F) → (⟨S8192x128, .bf16⟩ : BufTy).Contents (Elt F)),
    StableHlo.unary main_arg3 main_v10 (broadcastInDim S8192x1 ![0] bcast_S8192_S8192x1_0 : (⟨S8192, .i32⟩ : BufTy).Contents (Elt F) → (⟨S8192x1, .i32⟩ : BufTy).Contents (Elt F)),
    StableHlo.nullary main_c_0 (constantI S_ 32 128#32),
    StableHlo.unary main_c_0 main_v11 (broadcastInDim S8192x1 ![] bcast_S_S8192x1 : (⟨S_, .i32⟩ : BufTy).Contents (Elt F) → (⟨S8192x1, .i32⟩ : BufTy).Contents (Elt F)),
    StableHlo.binary main_v10 main_v11 main_v12 (muli : (⟨S8192x1, .i32⟩ : BufTy).Contents (Elt F) → (⟨S8192x1, .i32⟩ : BufTy).Contents (Elt F) → (⟨S8192x1, .i32⟩ : BufTy).Contents (Elt F)),
    StableHlo.nullary main_v13 (iotaInDim S128 32 0),
    StableHlo.unary main_v13 main_v14 (broadcastInDim S1x128 ![1] bcast_S128_S1x128_1 : (⟨S128, .i32⟩ : BufTy).Contents (Elt F) → (⟨S1x128, .i32⟩ : BufTy).Contents (Elt F)),
    StableHlo.unary main_v12 main_v15 (broadcastInDim S8192x128 ![0, 1] bcast_S8192x1_S8192x128_0_1 : (⟨S8192x1, .i32⟩ : BufTy).Contents (Elt F) → (⟨S8192x128, .i32⟩ : BufTy).Contents (Elt F)),
    StableHlo.unary main_v14 main_v16 (broadcastInDim S8192x128 ![0, 1] bcast_S1x128_S8192x128_0_1 : (⟨S1x128, .i32⟩ : BufTy).Contents (Elt F) → (⟨S8192x128, .i32⟩ : BufTy).Contents (Elt F)),
    StableHlo.binary main_v15 main_v16 main_v17 (addi : (⟨S8192x128, .i32⟩ : BufTy).Contents (Elt F) → (⟨S8192x128, .i32⟩ : BufTy).Contents (Elt F) → (⟨S8192x128, .i32⟩ : BufTy).Contents (Elt F)),
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8192x128, .i32⟩) (broadcastInDim S8192x128 ![] bcast_S_S8192x128),
    StableHlo.TRef.binary (.of main_v17 : StableHlo.TRef sig ⟨S8192x128, .i32⟩) (.of main_call1_v0 : StableHlo.TRef sig ⟨S8192x128, .i32⟩) (.of main_call1_v1 : StableHlo.TRef sig ⟨S8192x128, .i1⟩) (cmpi .slt),
    StableHlo.TRef.nullary (.of main_call1_c_0 : StableHlo.TRef sig ⟨S_, .i32⟩) (constantI S_ 32 1024#32),
    StableHlo.TRef.unary (.of main_call1_c_0 : StableHlo.TRef sig ⟨S_, .i32⟩) (.of main_call1_v2 : StableHlo.TRef sig ⟨S8192x128, .i32⟩) (broadcastInDim S8192x128 ![] bcast_S_S8192x128),
    StableHlo.TRef.binary (.of main_v17 : StableHlo.TRef sig ⟨S8192x128, .i32⟩) (.of main_call1_v2 : StableHlo.TRef sig ⟨S8192x128, .i32⟩) (.of main_call1_v3 : StableHlo.TRef sig ⟨S8192x128, .i32⟩) addi,
    StableHlo.TRef.ternary (.of main_call1_v1 : StableHlo.TRef sig ⟨S8192x128, .i1⟩) (.of main_call1_v3 : StableHlo.TRef sig ⟨S8192x128, .i32⟩) (.of main_v17 : StableHlo.TRef sig ⟨S8192x128, .i32⟩) (.of main_call1_v4 : StableHlo.TRef sig ⟨S8192x128, .i32⟩) select,
    StableHlo.TRef.reshape (.of main_call1_v4 : StableHlo.TRef sig ⟨S8192x128, .i32⟩) (.of main_call1_v5 : StableHlo.TRef sig ⟨S8192x128x1, .i32⟩) rfl shapeCasts_S8192x128_S8192x128x1,
    StableHlo.TRef.nullary (.of main_call1_c_1 : StableHlo.TRef sig ⟨S1, .i32⟩) (constantI S1 32 1023#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8192x128x1, .i32⟩) (broadcastInDim S8192x128x1 ![] bcast_S_S8192x128x1),
    StableHlo.TRef.binary (.of main_call1_v5 : StableHlo.TRef sig ⟨S8192x128x1, .i32⟩) (.of main_call1_v6 : StableHlo.TRef sig ⟨S8192x128x1, .i32⟩) (.of main_call1_v7 : StableHlo.TRef sig ⟨S8192x128x1, .i1⟩) (cmpi .sge),
    StableHlo.TRef.unary (.of main_call1_c_1 : StableHlo.TRef sig ⟨S1, .i32⟩) (.of main_call1_v8 : StableHlo.TRef sig ⟨S1x1x1, .i32⟩) (broadcastInDim S1x1x1 ![2] bcast_S1_S1x1x1_2),
    StableHlo.TRef.unary (.of main_call1_v8 : StableHlo.TRef sig ⟨S1x1x1, .i32⟩) (.of main_call1_v9 : StableHlo.TRef sig ⟨S8192x128x1, .i32⟩) (broadcastInDim S8192x128x1 ![0, 1, 2] bcast_S1x1x1_S8192x128x1_0_1_2),
    StableHlo.TRef.binary (.of main_call1_v5 : StableHlo.TRef sig ⟨S8192x128x1, .i32⟩) (.of main_call1_v9 : StableHlo.TRef sig ⟨S8192x128x1, .i32⟩) (.of main_call1_v10 : StableHlo.TRef sig ⟨S8192x128x1, .i1⟩) (cmpi .sle),
    StableHlo.TRef.binary (.of main_call1_v7 : StableHlo.TRef sig ⟨S8192x128x1, .i1⟩) (.of main_call1_v10 : StableHlo.TRef sig ⟨S8192x128x1, .i1⟩) (.of main_call1_v11 : StableHlo.TRef sig ⟨S8192x128x1, .i1⟩) andi,
    StableHlo.TRef.nullary (.of main_call1_c_3 : StableHlo.TRef sig ⟨S_, .i1⟩) (constantI S_ 1 1#1),
    StableHlo.TRef.binary (.of main_call1_v11 : StableHlo.TRef sig ⟨S8192x128x1, .i1⟩) (.of main_call1_c_3 : StableHlo.TRef sig ⟨S_, .i1⟩) (.of main_call1_v12 : StableHlo.TRef sig ⟨S8192x128, .i1⟩) valid,
    StableHlo.TRef.binary (.of main_arg1 : StableHlo.TRef sig ⟨S8192x1024, .f32⟩) (.of main_call1_v5 : StableHlo.TRef sig ⟨S8192x128x1, .i32⟩) (.of main_call1_v13 : StableHlo.TRef sig ⟨S8192x128, .f32⟩) pick,
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S8192x128, .f32⟩) (broadcastInDim S8192x128 ![] bcast_S_S8192x128),
    StableHlo.TRef.ternary (.of main_call1_v12 : StableHlo.TRef sig ⟨S8192x128, .i1⟩) (.of main_call1_v13 : StableHlo.TRef sig ⟨S8192x128, .f32⟩) (.of main_call1_v14 : StableHlo.TRef sig ⟨S8192x128, .f32⟩) (.of main_v18 : StableHlo.TRef sig ⟨S8192x128, .f32⟩) select,
    StableHlo.unary main_v18 main_v19 ((truncf .bf16 · bitsLt_bf16_f32) : (⟨S8192x128, .f32⟩ : BufTy).Contents (Elt F) → (⟨S8192x128, .bf16⟩ : BufTy).Contents (Elt F)),
    StableHlo.reshape main_arg2 main_v20 rfl shapeCasts_S8192_S8192x1,
    StableHlo.reshape main_arg3 main_v21 rfl shapeCasts_S8192_S1x8192 ]

/-- The program's own operations before the region are the instance at the reduction by `and` and the gather along the row. -/
theorem prep_eq : (List.flatten [hostOps0, hostOps0_1, hostOps0_2, hostOps0_3, hostOps0_4] : List (HloOp τ sig (Elt F)))
    = prepOf (fun x v => Host.reduce IntOp.andi x v reducesTo_S8192x128x1_S8192x128_d2 h_S_) (fun x i => Host.gather gather_S8192x1024_S8192x128x1_S8192x128_n_1_0_0_1_2_11 x i) := rfl

/-! ## What they leave in the four buffers -/

/-- Per row p and k < 128, the column number 128 · type(p) + k of the row's type slot. -/
def slotColumns (t : (⟨S8192, .i32⟩ : BufTy).Contents (Elt F)) : (⟨S8192x128, .i32⟩ : BufTy).Contents (Elt F) :=
  addi
    (broadcastInDim S8192x128 ![0, 1] bcast_S8192x1_S8192x128_0_1
      (muli (broadcastInDim S8192x1 ![0] bcast_S8192_S8192x1_0 t) (broadcastInDim S8192x1 ![] bcast_S_S8192x1 (constantI S_ 32 128#32))))
    (broadcastInDim S8192x128 ![0, 1] bcast_S1x128_S8192x128_0_1 (broadcastInDim S1x128 ![1] bcast_S128_S1x128_1 (iotaInDim S128 32 0)))

/-- A column number with a negative one wrapped by adding 1024, laid out with a last axis of one component. -/
def wrapped (idx : (⟨S8192x128, .i32⟩ : BufTy).Contents (Elt F)) : (⟨S8192x128x1, .i32⟩ : BufTy).Contents (Elt F) :=
  shapeCast S8192x128x1
    (select (cmpi .slt idx (broadcastInDim S8192x128 ![] bcast_S_S8192x128 (constantI S_ 32 0#32)))
      (addi idx (broadcastInDim S8192x128 ![] bcast_S_S8192x128 (constantI S_ 32 1024#32))) idx)
    shapeCasts_S8192x128_S8192x128x1

/-- The entries of `x` along each row at the given column numbers: the picked entry where the wrapped number is within
    0 … 1023, the fill value elsewhere. -/
def takeOf (valid : (⟨S8192x128x1, .i1⟩ : BufTy).Contents (Elt F) → (⟨S_, .i1⟩ : BufTy).Contents (Elt F) → (⟨S8192x128, .i1⟩ : BufTy).Contents (Elt F)) (pick : (⟨S8192x1024, .f32⟩ : BufTy).Contents (Elt F) → (⟨S8192x128x1, .i32⟩ : BufTy).Contents (Elt F) → (⟨S8192x128, .f32⟩ : BufTy).Contents (Elt F)) (x : (⟨S8192x1024, .f32⟩ : BufTy).Contents (Elt F)) (idx : (⟨S8192x128, .i32⟩ : BufTy).Contents (Elt F)) : (⟨S8192x128, .f32⟩ : BufTy).Contents (Elt F) :=
  select
    (valid
      (andi (cmpi .sge (wrapped (F := F) idx) (broadcastInDim S8192x128x1 ![] bcast_S_S8192x128x1 (constantI S_ 32 0#32)))
        (cmpi .sle (wrapped (F := F) idx) (broadcastInDim S8192x128x1 ![0, 1, 2] bcast_S1x1x1_S8192x128x1_0_1_2
          (broadcastInDim S1x1x1 ![2] bcast_S1_S1x1x1_2 (constantI S1 32 1023#32)))))
      (constantI S_ 1 1#1))
    (pick x (wrapped (F := F) idx))
    (broadcastInDim S8192x128 ![] bcast_S_S8192x128 (constant S_ .f32 0x7FC00000#32))

set_option maxRecDepth 16384 in
set_option maxHeartbeats 8000000 in
/-- The first slot buffer: the first feature array's entries at its rows' slot columns, at bf16. -/
theorem first_of (valid : (⟨S8192x128x1, .i1⟩ : BufTy).Contents (Elt F) → (⟨S_, .i1⟩ : BufTy).Contents (Elt F) → (⟨S8192x128, .i1⟩ : BufTy).Contents (Elt F)) (pick : (⟨S8192x1024, .f32⟩ : BufTy).Contents (Elt F) → (⟨S8192x128x1, .i32⟩ : BufTy).Contents (Elt F) → (⟨S8192x128, .f32⟩ : BufTy).Contents (Elt F)) (W : Valuation τ sig (Elt F)) :
    after (prepOf valid pick) W (main_v9 : DevRef τ sig)
      = truncf .bf16 (takeOf (F := F) valid pick (W (main_arg0 : DevRef τ sig)) (slotColumns (F := F) (W (main_arg2 : DevRef τ sig)))) bitsLt_bf16_f32 := by
  after_results_simp <;> rfl

set_option maxRecDepth 16384 in
set_option maxHeartbeats 8000000 in
/-- The second slot buffer: the second feature array's entries at its rows' slot columns, at bf16. -/
theorem second_of (valid : (⟨S8192x128x1, .i1⟩ : BufTy).Contents (Elt F) → (⟨S_, .i1⟩ : BufTy).Contents (Elt F) → (⟨S8192x128, .i1⟩ : BufTy).Contents (Elt F)) (pick : (⟨S8192x1024, .f32⟩ : BufTy).Contents (Elt F) → (⟨S8192x128x1, .i32⟩ : BufTy).Contents (Elt F) → (⟨S8192x128, .f32⟩ : BufTy).Contents (Elt F)) (W : Valuation τ sig (Elt F)) :
    after (prepOf valid pick) W (main_v19 : DevRef τ sig)
      = truncf .bf16 (takeOf (F := F) valid pick (W (main_arg1 : DevRef τ sig)) (slotColumns (F := F) (W (main_arg3 : DevRef τ sig)))) bitsLt_bf16_f32 := by
  after_results_simp <;> rfl

set_option maxRecDepth 16384 in
set_option maxHeartbeats 8000000 in
/-- The column buffer: the first type vector recast to 8192 × 1. -/
theorem column_of (valid : (⟨S8192x128x1, .i1⟩ : BufTy).Contents (Elt F) → (⟨S_, .i1⟩ : BufTy).Contents (Elt F) → (⟨S8192x128, .i1⟩ : BufTy).Contents (Elt F)) (pick : (⟨S8192x1024, .f32⟩ : BufTy).Contents (Elt F) → (⟨S8192x128x1, .i32⟩ : BufTy).Contents (Elt F) → (⟨S8192x128, .f32⟩ : BufTy).Contents (Elt F)) (W : Valuation τ sig (Elt F)) :
    after (prepOf valid pick) W (main_v20 : DevRef τ sig)
      = shapeCast S8192x1 (W (main_arg2 : DevRef τ sig) : S8192.Idx → BitVec 32) shapeCasts_S8192_S8192x1 := by
  after_results_simp <;> rfl

set_option maxRecDepth 16384 in
set_option maxHeartbeats 8000000 in
/-- The row buffer: the second type vector recast to 1 × 8192. -/
theorem row_of (valid : (⟨S8192x128x1, .i1⟩ : BufTy).Contents (Elt F) → (⟨S_, .i1⟩ : BufTy).Contents (Elt F) → (⟨S8192x128, .i1⟩ : BufTy).Contents (Elt F)) (pick : (⟨S8192x1024, .f32⟩ : BufTy).Contents (Elt F) → (⟨S8192x128x1, .i32⟩ : BufTy).Contents (Elt F) → (⟨S8192x128, .f32⟩ : BufTy).Contents (Elt F)) (W : Valuation τ sig (Elt F)) :
    after (prepOf valid pick) W (main_v21 : DevRef τ sig)
      = shapeCast S1x8192 (W (main_arg3 : DevRef τ sig) : S8192.Idx → BitVec 32) shapeCasts_S8192_S1x8192 := by
  after_results_simp <;> rfl

/-! ## The same operations as the reference's -/

/-- At the real reduction and gather, the entries taken at a type vector's slot columns are the reference's first
    gathered stage of the same feature array and type vector: the same operations, applied to the same values. -/
theorem take_first (x : (⟨S8192x1024, .f32⟩ : BufTy).Contents (Elt F)) (t : (⟨S8192, .i32⟩ : BufTy).Contents (Elt F)) :
    takeOf (F := F) (fun x v => Host.reduce IntOp.andi x v reducesTo_S8192x128x1_S8192x128_d2 h_S_) (fun x i => Host.gather gather_S8192x1024_S8192x128x1_S8192x128_n_1_0_0_1_2_11 x i) x (slotColumns (F := F) t)
      = Cert.ReferenceIdeal.ReadP.val_main_v10 (F := F) x t := rfl

/-- Likewise for the reference's second gathered stage. -/
theorem take_second (x : (⟨S8192x1024, .f32⟩ : BufTy).Contents (Elt F)) (t : (⟨S8192, .i32⟩ : BufTy).Contents (Elt F)) :
    takeOf (F := F) (fun x v => Host.reduce IntOp.andi x v reducesTo_S8192x128x1_S8192x128_d2 h_S_) (fun x i => Host.gather gather_S8192x1024_S8192x128x1_S8192x128_n_1_0_0_1_2_11 x i) x (slotColumns (F := F) t)
      = Cert.ReferenceIdeal.ReadP.val_main_v19 (F := F) x t := rfl

/-! ## The four arrays as the region finds them -/

variable (m : (ℓ : Loc nD τ sig) → Buf (Elt F) ℓ)

/-- The first slot array: the reference's gathered slots of the first feature array and type vector, at bf16. -/
theorem slots_first (c : Dev nD) :
    (V m c main_v9 : S8192x128.Idx → Elt F .bf16)
      = truncf .bf16 (Cert.ReferenceIdeal.ReadP.val_main_v10 (F := F) (m ((c : Thread nD τ).loc main_arg0))
          (m ((c : Thread nD τ).loc main_arg2))) bitsLt_bf16_f32 := by
  show after (List.flatten [hostOps0, hostOps0_1, hostOps0_2, hostOps0_3, hostOps0_4]) (fun b => m (c, b)) (main_v9 : DevRef τ sig) = _
  rw [prep_eq, first_of, take_first]

/-- The second slot array: the reference's gathered slots of the second feature array and type vector, at bf16. -/
theorem slots_second (c : Dev nD) :
    (V m c main_v19 : S8192x128.Idx → Elt F .bf16)
      = truncf .bf16 (Cert.ReferenceIdeal.ReadP.val_main_v19 (F := F) (m ((c : Thread nD τ).loc main_arg1))
          (m ((c : Thread nD τ).loc main_arg3))) bitsLt_bf16_f32 := by
  show after (List.flatten [hostOps0, hostOps0_1, hostOps0_2, hostOps0_3, hostOps0_4]) (fun b => m (c, b)) (main_v19 : DevRef τ sig) = _
  rw [prep_eq, second_of, take_second]

/-- The column of type words is the first type vector recast to 8192 × 1. -/
theorem types_column (c : Dev nD) :
    (V m c main_v20 : S8192x1.Idx → BitVec 32)
      = shapeCast S8192x1 (m ((c : Thread nD τ).loc main_arg2) : S8192.Idx → BitVec 32) shapeCasts_S8192_S8192x1 := by
  show after (List.flatten [hostOps0, hostOps0_1, hostOps0_2, hostOps0_3, hostOps0_4]) (fun b => m (c, b)) (main_v20 : DevRef τ sig) = _
  rw [prep_eq, column_of]

/-- The row of type words is the second type vector recast to 1 × 8192. -/
theorem types_row (c : Dev nD) :
    (V m c main_v21 : S1x8192.Idx → BitVec 32)
      = shapeCast S1x8192 (m ((c : Thread nD τ).loc main_arg3) : S8192.Idx → BitVec 32) shapeCasts_S8192_S1x8192 := by
  show after (List.flatten [hostOps0, hostOps0_1, hostOps0_2, hostOps0_3, hostOps0_4]) (fun b => m (c, b)) (main_v21 : DevRef τ sig) = _
  rw [prep_eq, row_of]

/-! ## The recast type vectors, read at an entry -/

/-- Entry (p, 0) of a vector of 8192 words recast to a column is the vector's word p. -/
theorem column_apply (t : IVec S8192 32) (p : Fin 8192) :
    shapeCast S8192x1 t shapeCasts_S8192_S8192x1 (ix2 p (0 : Fin 1)) = t (ix1 p) :=
  shapeCast_apply t shapeCasts_S8192_S8192x1 (ix2 p (0 : Fin 1)) (ix1 p) (by
    rw [Shape.rowMajor_val_one, Shape.rowMajor_val_two]
    show p.val = p.val * 1 + 0
    omega)

/-- Entry (0, q) of a vector of 8192 words recast to a row is the vector's word q. -/
theorem row_apply (t : IVec S8192 32) (q : Fin 8192) :
    shapeCast S1x8192 t shapeCasts_S8192_S1x8192 (ix2 (0 : Fin 1) q) = t (ix1 q) :=
  shapeCast_apply t shapeCasts_S8192_S1x8192 (ix2 (0 : Fin 1) q) (ix1 q) (by
    rw [Shape.rowMajor_val_one, Shape.rowMajor_val_two]
    show q.val = 0 * 8192 + q.val
    omega)

end Cert.KernelIdeal.Prepared

end
-- ==== Proof.KernelScores.lean ====
/-
  The kernel's table, in terms of the arguments.

  The region finds the two feature arrays as launched, the two slot arrays at what the reference's own gather stages
  hold (read at bf16, which changes nothing at the extended reals), and the two type vectors laid out as a column and as
  a row. Read entry by entry, the table of scores of those six arrays is the table of scores of the two feature arrays,
  of the reference's gathered slots and of the two type vectors themselves: row p's word in the column is the first
  vector's word p, column q's word in the row is the second vector's word q.
-/
import proofs.«139188_j51488067944939_2_alg».proof.Proof.KernelBlocks
import proofs.«139188_j51488067944939_2_alg».proof.Proof.KernelHost
import proofs.«139188_j51488067944939_2_alg».proof.Proof.PairScore

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.PairScore Cert.KernelIdeal.Prepared

variable (m : (ℓ : Loc nD τ sig) → Buf (Elt Ideal) ℓ)

/-- The kernel's table is the table of scores of the arguments and of the reference's gathered slots. -/
theorem table_eq (c : Dev nD) :
    table m c = scores (m ((c : Thread nD τ).loc main_arg0)) (m ((c : Thread nD τ).loc main_arg1))
      (Cert.ReferenceIdeal.ReadP.val_main_v10 (F := Ideal) (m ((c : Thread nD τ).loc main_arg0)) (m ((c : Thread nD τ).loc main_arg2)))
      (Cert.ReferenceIdeal.ReadP.val_main_v19 (F := Ideal) (m ((c : Thread nD τ).loc main_arg1)) (m ((c : Thread nD τ).loc main_arg3)))
      (m ((c : Thread nD τ).loc main_arg2)) (m ((c : Thread nD τ).loc main_arg3)) := by
  unfold table
  rw [V_main_arg0 m c, V_main_arg1 m c, slots_first m c, slots_second m c, types_column m c, types_row m c]
  funext i
  obtain ⟨p, q, rfl⟩ : ∃ (p q : Fin 8192), i = ix2 p q := ⟨i 0, i 1, eq_ix2 i⟩
  rw [scores_ix2, scores_ix2]
  unfold score
  show Scalar.select (IntOp.cmpi .eq
        (shapeCast S8192x1 (m ((c : Thread nD τ).loc main_arg2) : S8192.Idx → BitVec 32) shapeCasts_S8192_S8192x1 (ix2 p (0 : Fin 1)))
        (shapeCast S1x8192 (m ((c : Thread nD τ).loc main_arg3) : S8192.Idx → BitVec 32) shapeCasts_S8192_S1x8192 (ix2 (0 : Fin 1) q))) _ _ = _
  rw [column_apply, row_apply]
  simp only [truncf_apply]

end Cert.KernelIdeal.Whole

end
-- ==== Proof.lean ====
/-
  The proof of `Cert.Claim`: the kernel and its reference compute the same table of pair scores.

  For two feature arrays of 8192 rows and 1024 columns with a type word per row, both programs produce the 8192 × 8192
  table whose entry (p, q) is the dot product of row p of the first array with row q of the second when the two rows'
  type words are equal, and otherwise the dot product of the two rows' own 128-wide type slots (Proof/PairScore.lean).

  * The reference computes the two whole tables of dot products and selects between them entry by entry
    (Proof/RefRun.lean: its run; Proof/RefScore.lean: its result is the table of scores).
  * The kernel gathers the slots beforehand, then runs over an 8 × 16 grid; at each point it multiplies a 1024-row block
    by a 512-row block twice (whole rows, and slots) and selects by the block of the mask; the 128 tiles fill the table
    (Proof/KernelHost.lean: the prepared arrays; Proof/KernelPayload.lean: one tile; Proof/KernelBlocks.lean: the tiles
    fill the table; Proof/KernelScores.lean: in terms of the arguments).

  At the extended reals a change of float format is the identity and a product into a zero accumulator is the plain sum
  of products, so the two tables are sums of the same products over the same index sets: no rearrangement of a sum and no
  use of the finiteness of the inputs is needed. The gathered slots are the same term of the arguments in both programs
  and are never opened. The idealization rewrote no operation, so `preserves` is `True`; the kernels' frames are the
  generated ones, the reference's frame is its run with the result dropped.
-/
import proofs.«139188_j51488067944939_2_alg».proof.Defs
import proofs.«139188_j51488067944939_2_alg».proof.Proof.Gen.Kernel
import proofs.«139188_j51488067944939_2_alg».proof.Proof.Gen.Kernel.Frame
import proofs.«139188_j51488067944939_2_alg».proof.Proof.Gen.KernelIdeal
import proofs.«139188_j51488067944939_2_alg».proof.Proof.Gen.KernelIdeal.Frame
import proofs.«139188_j51488067944939_2_alg».proof.Proof.Gen.KernelIdeal.Value
import proofs.«139188_j51488067944939_2_alg».proof.Proof.Gen.ReferenceIdeal
import proofs.«139188_j51488067944939_2_alg».proof.Proof.Gen.Pre_finite_inputs
import proofs.«139188_j51488067944939_2_alg».proof.Proof.RefRun
import proofs.«139188_j51488067944939_2_alg».proof.Proof.RefRead
import proofs.«139188_j51488067944939_2_alg».proof.Proof.RefScore
import proofs.«139188_j51488067944939_2_alg».proof.Proof.KernelScores
import Idealize.ShloMosaic.Adequacy
import Idealize.ShloMosaic.Init

noncomputable section

namespace Cert.Proof

open Idealize.ShloMosaic Idealize.SL.Sem

/-- The kernel as printed runs and leaves its arguments unchanged: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the table of scores of the arguments: the kernel's
    result array is the table of the arrays the region found, which is the table of the arguments and of the reference's
    gathered slots; the reference's result is that same table. -/
theorem algebraic : Cert.algebraic_KernelIdeal_ReferenceIdeal := by
  intro m ρ m' ρ' _ hagree
  refine ⟨fun c => Cert.KernelIdeal.Whole.table m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v27_eq, Cert.ReferenceIdeal.Scores.result_eq, (hagree c).1, (hagree c).2.1,
    (hagree c).2.2.1, (hagree c).2.2.2]
  exact (Cert.KernelIdeal.Whole.table_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
